-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_arg7 : FVec F S64x40 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S64x40 .f32 := Host.absf main_arg7
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S128x64 .f32) (main_arg5 : FVec F S64x40 .f32) (main_arg6 : FVec F S40 .f32) (main_arg7 : FVec F S64x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1x64 : Shape := ⟨2, ![1, 64]⟩
abbrev S1600000x64 : Shape := ⟨2, ![1600000, 64]⟩
abbrev S100000x40 : Shape := ⟨2, ![100000, 40]⟩
abbrev S4000x40 : Shape := ⟨2, ![4000, 40]⟩
abbrev S1x40 : Shape := ⟨2, ![1, 40]⟩
abbrev S4000 : Shape := ⟨1, ![4000]⟩

abbrev nBuf : Space → Nat
  | .hbm => 47
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x40, .f32⟩
  | .hbm, ⟨6, _⟩ => ⟨S40, .f32⟩
  | .hbm, ⟨7, _⟩ => ⟨S64x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x64, .f32⟩
  | .local _ .vmem, ⟨7, _⟩ => ⟨S64, .f32⟩
  | .local _ .vmem, ⟨8, _⟩ => ⟨S128x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x1, .f32⟩
  | .local _ .vmem, ⟨14, _⟩ => ⟨S4000x1, .f32⟩
  | .local _ .vmem, ⟨15, _⟩ => ⟨S4000x64, .f32⟩
  | .local _ .vmem, ⟨16, _⟩ => ⟨S4000x64, .f32⟩
  | .local _ .vmem, ⟨17, _⟩ => ⟨S64x40, .f32⟩
  | .local _ .vmem, ⟨18, _⟩ => ⟨S40, .f32⟩
  | .local _ .vmem, ⟨19, _⟩ => ⟨S64x40, .f32⟩
  | .local _ .vmem, ⟨20, _⟩ => ⟨S4000x40, .f32⟩
  | .local _ .vmem, ⟨21, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S4000x64_S4000x64 : S4000x64.ShapeCasts S4000x64
  broadcasts_S4000x1_S4000x64 : S4000x1.Broadcasts S4000x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x40_S4000x40_1_0_0_1_n_n_wf : DotDims.WF S4000x64 S64x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x40.size a ≤ S64x40.size a
  hwx1_5 : ∀ i : grid1.Coords, EltTy.bits .f32 = 32 ∨ (Rect.block (s := S64x40) S64x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x40.size a ≤ S100000x40.size a
  hwx1_6 : ∀ i : grid1.Coords, EltTy.bits .f32 = 32 ∨ (Rect.block (s := S100000x40) S4000x40.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S4000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x40, .f32⟩
  | .hbm, ⟨6, _⟩ => ⟨S40, .f32⟩
  | .hbm, ⟨7, _⟩ => ⟨S64x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x40, .f32⟩
  | .hbm, ⟨72, _⟩ => ⟨S1x40, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibSageLayer.lean ====
/-
  One layer of a mean-aggregating graph convolution (a "SAGE" layer) on the extended reals, read at one entry, over any
  sizes.

  A node has the SUM of its neighbours' feature rows `s` (K numbers), the number of those neighbours `c`, and its own
  feature row `x` (K numbers). With two K × N tables `Wl`, `Wr` and a bias row `b`, output `q` of the layer is

      Σ_k (s k / max c 1) · Wl (k, q)  +  b q  +  Σ_k x k · Wr (k, q):

  the neighbours' mean (the sum over the count, a count of zero read as one) through `Wl`, the bias, and the node's own
  row through `Wr`, added in that order (`entry`).

  Two spellings of the layer meet here. The vector unit works on a block of TM nodes: the count is a column [TM, 1]
  whose maximum with one is broadcast along the lanes under the quotient, the two products are matrix-unit products
  into zero accumulators of operands whose change of float format is the identity on extended reals, and the bias is a
  flat row cast to [1, N] and broadcast down the block (`body`, `body_apply`). The host works on all M nodes: the count
  is a vector of M numbers whose maximum with one is laid as a column and along the lanes by two `broadcast_in_dim`s,
  the products are plain `dot_general`s and the bias row is laid to [1, N] and then to [M, N] (`host`, `host_apply`).
  Entry (p, q) of either is `entry` of node p's rows, so a block agrees with the whole wherever its rows are the whole's.
-/
import Idealize.ShloMosaic.PureOps.Ideal.Laws
import Idealize.ShloMosaic.Lib.Pipeline.Value
import Idealize.ShloMosaic.Lib.ValueIdx
import proofs.«162948_j45664092291593_1_alg».proof.Proof.LibPlainMatmul
import proofs.«162948_j45664092291593_1_alg».proof.Proof.LibHostReads
import proofs.«162948_j45664092291593_1_alg».proof.Proof.LibColRowBroadcast

noncomputable section

open scoped BigOperators

namespace Cert.SageLayer

open Idealize.ShloMosaic Idealize.ShloMosaic.ValueIdx

/-- Output `q` of the layer at one node: the neighbours' mean through `Wl`, plus the bias, plus the node's own row
    through `Wr`. -/
def entry {K N : ℕ} (s x : Fin K → EReal) (c : EReal) (Wl Wr : (⟨2, ![K, N]⟩ : Shape).Idx → EReal)
    (b : (⟨1, ![N]⟩ : Shape).Idx → EReal) (q : Fin N) : EReal :=
  (∑ k : Fin K, Ideal.div (s k) (max c (Ideal.ofBits .f32 0x3F800000#32)) * Wl (ix2 k q)) + b (ix1 q)
    + ∑ k : Fin K, x k * Wr (ix2 k q)

/-! ## The vector unit's spelling, on a block of TM nodes -/

/-- The layer as the vector unit computes it on a block: `c` the counts' column, `s` the summed rows, `xb` the nodes' own
    rows as the second product takes them. -/
def body (TM K N : ℕ) (hbf : FTy.bf16.bits < FTy.f32.bits)
    (hc : (⟨2, ![TM, 1]⟩ : Shape).ShapeCasts ⟨2, ![TM, 1]⟩) (hs : (⟨2, ![TM, K]⟩ : Shape).ShapeCasts ⟨2, ![TM, K]⟩)
    (hcb : (⟨2, ![TM, 1]⟩ : Shape).Broadcasts ⟨2, ![TM, K]⟩)
    (hr : (⟨1, ![N]⟩ : Shape).ShapeCasts ⟨2, ![1, N]⟩) (hrb : (⟨2, ![1, N]⟩ : Shape).Broadcasts ⟨2, ![TM, N]⟩)
    (c : FVec Ideal ⟨2, ![TM, 1]⟩ .f32) (s : FVec Ideal ⟨2, ![TM, K]⟩ .f32) (xb : FVec Ideal ⟨2, ![TM, K]⟩ .bf16)
    (wl wr : FVec Ideal ⟨2, ![K, N]⟩ .f32) (b : FVec Ideal ⟨1, ![N]⟩ .f32) : FVec Ideal ⟨2, ![TM, N]⟩ .f32 :=
  addf (addf
      (matmul (DotDims.plain TM K N) none
        (truncf .bf16 (divf (shapeCast ⟨2, ![TM, K]⟩ s hs)
          (broadcastTo ⟨2, ![TM, K]⟩ (maximumf (shapeCast ⟨2, ![TM, 1]⟩ c hc)
            (broadcast ⟨2, ![TM, 1]⟩ (Scalar.ofBits (F := Ideal) .f32 0x3F800000#32))) hcb)) hbf)
        (truncf .bf16 wl hbf) (constant ⟨2, ![TM, N]⟩ .f32 0x00000000#32))
      (broadcastTo ⟨2, ![TM, N]⟩ (shapeCast ⟨2, ![1, N]⟩ b hr) hrb))
    (matmul (DotDims.plain TM K N) none xb (truncf .bf16 wr hbf) (constant ⟨2, ![TM, N]⟩ .f32 0x00000000#32))

/-- The mean under the first product, at (p, k): the summed row's entry over the count's maximum with one. -/
theorem mean_apply (TM K : ℕ) (hc : (⟨2, ![TM, 1]⟩ : Shape).ShapeCasts ⟨2, ![TM, 1]⟩)
    (hs : (⟨2, ![TM, K]⟩ : Shape).ShapeCasts ⟨2, ![TM, K]⟩) (hcb : (⟨2, ![TM, 1]⟩ : Shape).Broadcasts ⟨2, ![TM, K]⟩)
    (c : FVec Ideal ⟨2, ![TM, 1]⟩ .f32) (s : FVec Ideal ⟨2, ![TM, K]⟩ .f32) (p : Fin TM) (k : Fin K) :
    divf (shapeCast ⟨2, ![TM, K]⟩ s hs)
        (broadcastTo ⟨2, ![TM, K]⟩ (maximumf (shapeCast ⟨2, ![TM, 1]⟩ c hc)
          (broadcast ⟨2, ![TM, 1]⟩ (Scalar.ofBits (F := Ideal) .f32 0x3F800000#32))) hcb) (ix2 p k)
      = Ideal.div (s (ix2 p k)) (max (c (ix2 p (0 : Fin 1))) (Ideal.ofBits .f32 0x3F800000#32)) := by
  rw [divf_apply, shapeCast_self, Cert.ColRowBroadcast.colBroadcast_apply, maximumf_apply, shapeCast_self]
  rfl

/-- The vector unit's layer at (p, q) is `entry` of row p of the block's operands. -/
theorem body_apply (TM K N : ℕ) (hbf : FTy.bf16.bits < FTy.f32.bits)
    (hc : (⟨2, ![TM, 1]⟩ : Shape).ShapeCasts ⟨2, ![TM, 1]⟩) (hs : (⟨2, ![TM, K]⟩ : Shape).ShapeCasts ⟨2, ![TM, K]⟩)
    (hcb : (⟨2, ![TM, 1]⟩ : Shape).Broadcasts ⟨2, ![TM, K]⟩)
    (hr : (⟨1, ![N]⟩ : Shape).ShapeCasts ⟨2, ![1, N]⟩) (hrb : (⟨2, ![1, N]⟩ : Shape).Broadcasts ⟨2, ![TM, N]⟩)
    (c : FVec Ideal ⟨2, ![TM, 1]⟩ .f32) (s : FVec Ideal ⟨2, ![TM, K]⟩ .f32) (xb : FVec Ideal ⟨2, ![TM, K]⟩ .bf16)
    (wl wr : FVec Ideal ⟨2, ![K, N]⟩ .f32) (b : FVec Ideal ⟨1, ![N]⟩ .f32) (p : Fin TM) (q : Fin N) :
    body TM K N hbf hc hs hcb hr hrb c s xb wl wr b (ix2 p q)
      = entry (fun k => s (ix2 p k)) (fun k => xb (ix2 p k)) (c (ix2 p (0 : Fin 1))) wl wr b q := by
  unfold body entry
  rw [addf_apply, addf_apply]
  refine congrArg₂ (· + ·) (congrArg₂ (· + ·) ?_ ?_) ?_
  · refine (Cert.PlainMatmul.matmul_zero_apply TM K N none _ _ p q).trans ?_
    refine Finset.sum_congr rfl fun k _ => ?_
    rw [truncf_apply, truncf_apply, mean_apply]
  · rw [Cert.ColRowBroadcast.rowBroadcast_apply, Cert.ColRowBroadcast.rowCast_apply]
  · refine (Cert.PlainMatmul.matmul_zero_apply TM K N none _ _ p q).trans ?_
    refine Finset.sum_congr rfl fun k _ => ?_
    rw [truncf_apply]

/-! ## The host's spelling, on all M nodes -/

/-- A rank-zero constant broadcast to a vector reads the constant's value at every entry. -/
theorem hostSplat_apply {M : ℕ} (h0 : (⟨0, ![]⟩ : Shape).BroadcastsInDim ⟨1, ![M]⟩ ![]) (w : BitVec 32) (p : Fin M) :
    broadcastInDim ⟨1, ![M]⟩ ![] h0 (constant (F := Ideal) ⟨0, ![]⟩ .f32 w) (ix1 p) = Ideal.ofBits .f32 w :=
  broadcastInDim_apply ![] h0 (constant (F := Ideal) ⟨0, ![]⟩ .f32 w) (ix1 p) (fun e => e.elim0) (fun e => e.elim0)

/-- A vector of M entries laid as a column [M, 1] and then along the lanes to [M, K] by two `broadcast_in_dim`s reads,
    at (p, k), entry p. -/
theorem hostCol_apply {α : Type} {M K : ℕ} (u : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, K]⟩ ![0, 1]) (p : Fin M) (k : Fin K) :
    broadcastInDim ⟨2, ![M, K]⟩ ![0, 1] h2 (broadcastInDim ⟨2, ![M, 1]⟩ ![0] h1 u) (ix2 p k) = u (ix1 p) := by
  refine (broadcastInDim_apply _ h2 _ (ix2 p k) (ix2 p (0 : Fin 1)) fun a => ?_).trans ?_
  · match a with
    | ⟨0, _⟩ =>
      show p.val = if M = 1 then 0 else p.val
      split
      · have := p.isLt; omega
      · rfl
    | ⟨1, _⟩ => exact (if_pos rfl).symm
  · refine broadcastInDim_apply _ h1 u (ix2 p (0 : Fin 1)) (ix1 p) fun a => ?_
    match a with
    | ⟨0, _⟩ =>
      show p.val = if M = 1 then 0 else p.val
      split
      · have := p.isLt; omega
      · rfl

/-- A row of N entries laid to [1, N] and then down M rows by two `broadcast_in_dim`s reads, at (p, q), entry q. -/
theorem hostRow_apply {α : Type} {M N : ℕ} (u : (⟨1, ![N]⟩ : Shape).Idx → α)
    (h3 : (⟨1, ![N]⟩ : Shape).BroadcastsInDim ⟨2, ![1, N]⟩ ![1])
    (h4 : (⟨2, ![1, N]⟩ : Shape).BroadcastsInDim ⟨2, ![M, N]⟩ ![0, 1]) (p : Fin M) (q : Fin N) :
    broadcastInDim ⟨2, ![M, N]⟩ ![0, 1] h4 (broadcastInDim ⟨2, ![1, N]⟩ ![1] h3 u) (ix2 p q) = u (ix1 q) := by
  refine (broadcastInDim_apply _ h4 _ (ix2 p q) (ix2 (0 : Fin 1) q) fun a => ?_).trans ?_
  · match a with
    | ⟨0, _⟩ => exact (if_pos rfl).symm
    | ⟨1, _⟩ =>
      show q.val = if N = 1 then 0 else q.val
      split
      · have := q.isLt; omega
      · rfl
  · refine broadcastInDim_apply _ h3 u (ix2 (0 : Fin 1) q) (ix1 q) fun a => ?_
    match a with
    | ⟨0, _⟩ =>
      show q.val = if N = 1 then 0 else q.val
      split
      · have := q.isLt; omega
      · rfl

/-- The layer as the host computes it on all M nodes: `C` the counts, `S` the summed rows, `X` the nodes' own rows. -/
def host (M K N : ℕ) (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, K]⟩ ![0, 1])
    (h3 : (⟨1, ![N]⟩ : Shape).BroadcastsInDim ⟨2, ![1, N]⟩ ![1])
    (h4 : (⟨2, ![1, N]⟩ : Shape).BroadcastsInDim ⟨2, ![M, N]⟩ ![0, 1])
    (S : FVec Ideal ⟨2, ![M, K]⟩ .f32) (C : FVec Ideal ⟨1, ![M]⟩ .f32) (X : FVec Ideal ⟨2, ![M, K]⟩ .f32)
    (Wl Wr : FVec Ideal ⟨2, ![K, N]⟩ .f32) (B : FVec Ideal ⟨1, ![N]⟩ .f32) : FVec Ideal ⟨2, ![M, N]⟩ .f32 :=
  addf (addf
      (Host.dotGeneral (F := Ideal) (DotDims.plain M K N) none
        (Host.divf S (broadcastInDim ⟨2, ![M, K]⟩ ![0, 1] h2 (broadcastInDim ⟨2, ![M, 1]⟩ ![0] h1
          (maximumf C (broadcastInDim ⟨1, ![M]⟩ ![] h0 (constant (F := Ideal) ⟨0, ![]⟩ .f32 0x3F800000#32)))))) Wl)
      (broadcastInDim ⟨2, ![M, N]⟩ ![0, 1] h4 (broadcastInDim ⟨2, ![1, N]⟩ ![1] h3 B)))
    (Host.dotGeneral (F := Ideal) (DotDims.plain M K N) none X Wr)

/-- The host's layer at (p, q) is `entry` of node p's rows. -/
theorem host_apply (M K N : ℕ) (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, K]⟩ ![0, 1])
    (h3 : (⟨1, ![N]⟩ : Shape).BroadcastsInDim ⟨2, ![1, N]⟩ ![1])
    (h4 : (⟨2, ![1, N]⟩ : Shape).BroadcastsInDim ⟨2, ![M, N]⟩ ![0, 1])
    (S : FVec Ideal ⟨2, ![M, K]⟩ .f32) (C : FVec Ideal ⟨1, ![M]⟩ .f32) (X : FVec Ideal ⟨2, ![M, K]⟩ .f32)
    (Wl Wr : FVec Ideal ⟨2, ![K, N]⟩ .f32) (B : FVec Ideal ⟨1, ![N]⟩ .f32) (p : Fin M) (q : Fin N) :
    host M K N h0 h1 h2 h3 h4 S C X Wl Wr B (ix2 p q)
      = entry (fun k => S (ix2 p k)) (fun k => X (ix2 p k)) (C (ix1 p)) Wl Wr B q := by
  unfold host entry
  rw [addf_apply, addf_apply, Cert.LibHostReads.dotGeneral_plain_apply, Cert.LibHostReads.dotGeneral_plain_apply,
    hostRow_apply]
  refine congrArg (fun z => z + B (ix1 q) + ∑ k : Fin K, X (ix2 p k) * Wr (ix2 k q)) ?_
  refine Finset.sum_congr rfl fun k _ => ?_
  show Ideal.div (S (ix2 p k)) (broadcastInDim ⟨2, ![M, K]⟩ ![0, 1] h2 (broadcastInDim ⟨2, ![M, 1]⟩ ![0] h1
      (maximumf C (broadcastInDim ⟨1, ![M]⟩ ![] h0 (constant (F := Ideal) ⟨0, ![]⟩ .f32 0x3F800000#32)))) (ix2 p k))
    * Wl (ix2 k q) = _
  rw [hostCol_apply, maximumf_apply, hostSplat_apply]

/-! ## The layer as one function of whole arrays -/

/-- The layer on all M nodes as one function of the whole arrays, index by index. -/
def layer {M K N : ℕ} (S : (⟨2, ![M, K]⟩ : Shape).Idx → EReal) (C : (⟨1, ![M]⟩ : Shape).Idx → EReal)
    (X : (⟨2, ![M, K]⟩ : Shape).Idx → EReal) (Wl Wr : (⟨2, ![K, N]⟩ : Shape).Idx → EReal)
    (B : (⟨1, ![N]⟩ : Shape).Idx → EReal) : (⟨2, ![M, N]⟩ : Shape).Idx → EReal :=
  fun y => entry (fun k => S (ix2 (n0 := M) (y 0) k)) (fun k => X (ix2 (n0 := M) (y 0) k)) (C (ix1 (n := M) (y 0))) Wl Wr B (y 1)

theorem layer_ix2 {M K N : ℕ} (S : (⟨2, ![M, K]⟩ : Shape).Idx → EReal) (C : (⟨1, ![M]⟩ : Shape).Idx → EReal)
    (X : (⟨2, ![M, K]⟩ : Shape).Idx → EReal) (Wl Wr : (⟨2, ![K, N]⟩ : Shape).Idx → EReal)
    (B : (⟨1, ![N]⟩ : Shape).Idx → EReal) (p : Fin M) (q : Fin N) :
    layer S C X Wl Wr B (ix2 p q) = entry (fun k => S (ix2 p k)) (fun k => X (ix2 p k)) (C (ix1 p)) Wl Wr B q := rfl

/-- The host's spelling IS the layer. -/
theorem host_eq_layer (M K N : ℕ) (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, K]⟩ ![0, 1])
    (h3 : (⟨1, ![N]⟩ : Shape).BroadcastsInDim ⟨2, ![1, N]⟩ ![1])
    (h4 : (⟨2, ![1, N]⟩ : Shape).BroadcastsInDim ⟨2, ![M, N]⟩ ![0, 1])
    (S : FVec Ideal ⟨2, ![M, K]⟩ .f32) (C : FVec Ideal ⟨1, ![M]⟩ .f32) (X : FVec Ideal ⟨2, ![M, K]⟩ .f32)
    (Wl Wr : FVec Ideal ⟨2, ![K, N]⟩ .f32) (B : FVec Ideal ⟨1, ![N]⟩ .f32) :
    host M K N h0 h1 h2 h3 h4 S C X Wl Wr B = layer S C X Wl Wr B := by
  funext i
  obtain ⟨p, q, rfl⟩ : ∃ (p : Fin M) (q : Fin N), i = ix2 p q := ⟨i 0, i 1, eq_ix2 i⟩
  rw [host_apply, layer_ix2]

/-- The counts as a vector, read off a column [M, 1] that holds them. -/
def colOf {α : Type} {M : ℕ} (C8 : (⟨2, ![M, 1]⟩ : Shape).Idx → α) : (⟨1, ![M]⟩ : Shape).Idx → α :=
  fun i => C8 (ix2 (n0 := M) (i 0) (0 : Fin 1))

theorem colOf_ix1 {α : Type} {M : ℕ} (C8 : (⟨2, ![M, 1]⟩ : Shape).Idx → α) (p : Fin M) :
    colOf C8 (ix1 p) = C8 (ix2 p (0 : Fin 1)) := rfl

/-- The column a vector is cast to holds that vector. -/
theorem colOf_shapeCast {α : Type} {M : ℕ} (u : (⟨1, ![M]⟩ : Shape).Idx → α)
    (hc : (⟨1, ![M]⟩ : Shape).ShapeCasts ⟨2, ![M, 1]⟩) : colOf (shapeCast ⟨2, ![M, 1]⟩ u hc) = u := by
  funext i
  obtain ⟨p, rfl⟩ : ∃ p : Fin M, i = ix1 p := ⟨i 0, eq_ix1 i⟩
  rw [colOf_ix1, Cert.ColRowBroadcast.colCast_apply]

/-- A block against the whole: when row p of the block's operands is row r of the whole arrays' (the count read off a
    column), entry (p, q) of the vector unit's layer on the block is entry (r, q) of the layer on the whole arrays. -/
theorem body_eq_layer (M TM K N : ℕ) (hbf : FTy.bf16.bits < FTy.f32.bits)
    (hc : (⟨2, ![TM, 1]⟩ : Shape).ShapeCasts ⟨2, ![TM, 1]⟩) (hs : (⟨2, ![TM, K]⟩ : Shape).ShapeCasts ⟨2, ![TM, K]⟩)
    (hcb : (⟨2, ![TM, 1]⟩ : Shape).Broadcasts ⟨2, ![TM, K]⟩)
    (hr : (⟨1, ![N]⟩ : Shape).ShapeCasts ⟨2, ![1, N]⟩) (hrb : (⟨2, ![1, N]⟩ : Shape).Broadcasts ⟨2, ![TM, N]⟩)
    (S : (⟨2, ![M, K]⟩ : Shape).Idx → EReal) (C8 : (⟨2, ![M, 1]⟩ : Shape).Idx → EReal)
    (X : (⟨2, ![M, K]⟩ : Shape).Idx → EReal)
    (c : FVec Ideal ⟨2, ![TM, 1]⟩ .f32) (s : FVec Ideal ⟨2, ![TM, K]⟩ .f32) (xb : FVec Ideal ⟨2, ![TM, K]⟩ .bf16)
    (wl wr : FVec Ideal ⟨2, ![K, N]⟩ .f32) (b : FVec Ideal ⟨1, ![N]⟩ .f32) (p : Fin TM) (r : Fin M) (q : Fin N)
    (es : ∀ k : Fin K, s (ix2 p k) = S (ix2 r k)) (ex : ∀ k : Fin K, xb (ix2 p k) = X (ix2 r k))
    (ec : c (ix2 p (0 : Fin 1)) = C8 (ix2 r (0 : Fin 1))) :
    body TM K N hbf hc hs hcb hr hrb c s xb wl wr b (ix2 p q) = layer S (colOf C8) X wl wr b (ix2 r q) := by
  rw [body_apply, layer_ix2, colOf_ix1, funext es, funext ex, ec]

end Cert.SageLayer

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.LibHostRowSoftmax.lean ====
/-
  Softmax along the last axis of a matrix as a host program spells it, read at one element on the extended reals, over
  any sizes: the row maximum by a max-reduction from −∞ (and one more maximum with −∞, which changes nothing), cast to a
  column and broadcast back, subtracted; the exponential; the row sum by an add-reduction from zero, cast and broadcast
  back; the quotient. At (p, q) the whole expression is the softmax of row p at q.
-/
import Idealize.ShloMosaic.PureOps.Ideal.Laws
import Idealize.ShloMosaic.Lib.ValueIdx
import Idealize.ShloMosaic.Lib.Pipeline.Value
import proofs.«162948_j45664092291593_1_alg».proof.Proof.LibRowSoftmax

noncomputable section

open scoped BigOperators

namespace Cert.HostRowSoftmax

open Idealize.ShloMosaic Idealize.ShloMosaic.ValueIdx Cert.RowSoftmax

/-- The host's max-reduction over the last of two axes, from an initial value, at row p: the fold of `max` from the
    initial value over that row. -/
theorem hostRowFold_apply {a b : ℕ} (x : FVec Ideal ⟨2, ![a, b]⟩ .f32) (init : FVec Ideal ⟨0, ![]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun l : Fin b => x (ix2 p l)) := by
  refine (Host.reduce_eq_fold_single FloatOps.maximumf x init h' h hu (ix1 p)).trans ?_
  refine congrArg (fun f => Finset.fold max _ f Finset.univ) (funext fun l => congrArg x (funext fun e => Fin.ext ?_))
  match e with
  | ⟨0, _⟩ => rfl
  | ⟨1, _⟩ => rfl

/-- The host's add-reduction over the last of two axes, from the zero word, at row p: the sum of that row. -/
theorem hostRowSum_apply {a b : ℕ} (x : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduceAdd x (constant (F := Ideal) ⟨0, ![]⟩ .f32 0x00000000#32) h' hu (ix1 p) = ∑ l : Fin b, x (ix2 p l) := by
  simp only [Host.reduceAdd, Ideal.hostReduceAdd_def]
  rw [Ideal.hostReduceAdd_single h' h]
  rw [constant_apply, Ideal.ofBits_zero_f32, zero_add]
  refine Finset.sum_congr rfl fun l _ => congrArg x (funext fun e => Fin.ext ?_)
  match e with
  | ⟨0, _⟩ => rfl
  | ⟨1, _⟩ => rfl

/-- A vector of `a` entries laid as a column [a, 1] and then along the lanes to [a, b] by two `broadcast_in_dim`s reads,
    at (p, q), entry p. -/
theorem keepdimsCol_apply {α : Type} {a b : ℕ} (u : (⟨1, ![a]⟩ : Shape).Idx → α)
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    broadcastInDim ⟨2, ![a, b]⟩ ![0, 1] b2 (broadcastInDim ⟨2, ![a, 1]⟩ ![0] b1 u) (ix2 p q) = u (ix1 p) := by
  refine (broadcastInDim_apply _ b2 _ (ix2 p q) (ix2 p (0 : Fin 1)) fun c => ?_).trans ?_
  · match c with
    | ⟨0, _⟩ =>
      show p.val = if a = 1 then 0 else p.val
      split
      · have := p.isLt; omega
      · rfl
    | ⟨1, _⟩ => exact (if_pos rfl).symm
  · refine broadcastInDim_apply _ b1 u (ix2 p (0 : Fin 1)) (ix1 p) fun c => ?_
    match c with
    | ⟨0, _⟩ =>
      show p.val = if a = 1 then 0 else p.val
      split
      · have := p.isLt; omega
      · rfl

/-- The row maximum as the host takes it — the max-reduction from −∞, then the maximum with −∞ broadcast from rank
    zero — at row p: the row's greatest entry. -/
theorem hostRowMax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![]) (p : Fin a) :
    maximumf (broadcastInDim ⟨1, ![a]⟩ ![] b0 (constant (F := Ideal) ⟨0, ![]⟩ .f32 0xFF800000#32))
        (Host.reduce FloatOps.maximumf s (constant (F := Ideal) ⟨0, ![]⟩ .f32 0xFF800000#32) h' hu) (ix1 p)
      = rowMax (fun l : Fin b => s (ix2 p l)) := by
  have e1 : broadcastInDim ⟨1, ![a]⟩ ![] b0 (constant (F := Ideal) ⟨0, ![]⟩ .f32 0xFF800000#32) (ix1 p)
      = Ideal.ofBits .f32 0xFF800000#32 :=
    broadcastInDim_apply ![] b0 (constant (F := Ideal) ⟨0, ![]⟩ .f32 0xFF800000#32) (ix1 p) (fun e => e.elim0) (fun e => e.elim0)
  rw [maximumf_apply, e1, max_negInf, hostRowFold_apply s _ h' h hu p, constant_apply]
  unfold rowMax
  rfl

/-- The host's exponential of a difference at an index. -/
theorem hostExpSub_apply {t : Shape} (s B : FVec Ideal t .f32) (i : t.Idx) :
    Host.exp (subf s B) i = Ideal.exp (s i - B i) := rfl

/-- The host's quotient at an index. -/
theorem hostDivf_apply {t : Shape} (u v : FVec Ideal t .f32) (i : t.Idx) :
    Host.divf u v i = Ideal.div (u i) (v i) := rfl

/-- The host's whole softmax expression at (p, q): the softmax of row p at q. -/
theorem hostSoftmax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    Host.divf
        (Host.exp (subf s (broadcastInDim ⟨2, ![a, b]⟩ ![0, 1] b2 (broadcastInDim ⟨2, ![a, 1]⟩ ![0] b1
          (maximumf (broadcastInDim ⟨1, ![a]⟩ ![] b0 (constant (F := Ideal) ⟨0, ![]⟩ .f32 0xFF800000#32))
            (Host.reduce FloatOps.maximumf s (constant (F := Ideal) ⟨0, ![]⟩ .f32 0xFF800000#32) h' hu))))))
        (broadcastInDim ⟨2, ![a, b]⟩ ![0, 1] b2 (broadcastInDim ⟨2, ![a, 1]⟩ ![0] b1
          (Host.reduceAdd (Host.exp (subf s (broadcastInDim ⟨2, ![a, b]⟩ ![0, 1] b2 (broadcastInDim ⟨2, ![a, 1]⟩ ![0] b1
            (maximumf (broadcastInDim ⟨1, ![a]⟩ ![] b0 (constant (F := Ideal) ⟨0, ![]⟩ .f32 0xFF800000#32))
              (Host.reduce FloatOps.maximumf s (constant (F := Ideal) ⟨0, ![]⟩ .f32 0xFF800000#32) h' hu))))))
            (constant (F := Ideal) ⟨0, ![]⟩ .f32 0x00000000#32) h' hu))) (ix2 p q)
      = softmax2 s (ix2 p q) := by
  have hsub : ∀ k : Fin b, Host.exp (subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu))))) (ix2 p k)
      = Ideal.exp (s (ix2 p k) - rowMax (fun l : Fin b => s (ix2 p l))) := fun k => by
    rw [hostExpSub_apply, keepdimsCol_apply, hostRowMax_apply s h' h hu b0 p]
  rw [softmax2_ix2]
  unfold rowSoftmax
  rw [hostDivf_apply, keepdimsCol_apply, hostRowSum_apply _ h' h hu p, hsub q]
  exact congrArg _ (Finset.sum_congr rfl fun k _ => hsub k)

end Cert.HostRowSoftmax

end
-- ==== Proof.LibRowLogSoftmax.lean ====
/-
  Log-softmax along the last axis of a matrix, on the extended reals, read at one element, over any sizes.

  For a row `r` with greatest entry `m = rowMax r`, the log-softmax at position `j` is

      (r j − m) − log (Σ_k exp (r k − m)),

  with the exponential, the logarithm and the subtraction of the ideal float values (`rowLogSoftmax`). A vector kernel and
  a host program both build it from the same pieces — the row maximum from −∞, subtracted; the exponential; the row sum
  from zero; its logarithm taken ON THE REDUCED COLUMN and only then laid back along the lanes; subtracted again — and
  differ only in how the reduced columns are laid back: the vector unit casts a vector [a] to [a, 1] and broadcasts it to
  [a, b], the host uses two `broadcast_in_dim`s (and one more maximum with −∞, which changes nothing). At (p, q) either
  expression is `rowLogSoftmax` of row p at q (`vector_apply`, `host_apply`); like a softmax, it only looks along rows.
-/
import Idealize.ShloMosaic.PureOps.Ideal.Laws
import Idealize.ShloMosaic.Lib.ValueIdx
import Idealize.ShloMosaic.Lib.Pipeline.Value
import proofs.«162948_j45664092291593_1_alg».proof.Proof.LibRowSoftmax
import proofs.«162948_j45664092291593_1_alg».proof.Proof.LibHostRowSoftmax
import proofs.«162948_j45664092291593_1_alg».proof.Proof.LibColRowBroadcast

noncomputable section

open scoped BigOperators

namespace Cert.RowLogSoftmax

open Idealize.ShloMosaic Idealize.ShloMosaic.ValueIdx Cert.RowSoftmax

/-- Log-softmax of a row at position `j`: the entry shifted by the row's maximum, less the logarithm of the sum of all
    the row's shifted exponentials. -/
def rowLogSoftmax {n : ℕ} (r : Fin n → EReal) (j : Fin n) : EReal :=
  (r j - rowMax r) - Ideal.log (∑ k : Fin n, Ideal.exp (r k - rowMax r))

/-- Log-softmax of every row of a matrix. -/
def logSoftmax2 {a b : ℕ} (x : (⟨2, ![a, b]⟩ : Shape).Idx → EReal) : (⟨2, ![a, b]⟩ : Shape).Idx → EReal :=
  fun y => rowLogSoftmax (fun k : Fin b => x (ix2 (n0 := a) (y 0) k)) (y 1)

theorem logSoftmax2_ix2 {a b : ℕ} (x : (⟨2, ![a, b]⟩ : Shape).Idx → EReal) (p : Fin a) (q : Fin b) :
    logSoftmax2 x (ix2 p q) = rowLogSoftmax (fun k => x (ix2 p k)) q := rfl

/-! ## The vector unit's spelling -/

/-- The whole vector expression — the lanes' maximum subtracted, the exponential, the lanes' sum, its logarithm on the
    reduced column, broadcast back and subtracted — reads, at (p, q), the log-softmax of row `p` at `q`. -/
theorem vector_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    subf (subf v (broadcastTo ⟨2, ![a, b]⟩ (shapeCast ⟨2, ![a, 1]⟩ (multiReduction .maximumf [1] ⟨1, ![a]⟩ v 0xFF800000#32 hr hφ hm) hc) hb))
        (broadcastTo ⟨2, ![a, b]⟩ (log (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc)) hb) (ix2 p q)
      = rowLogSoftmax (fun k => v (ix2 p k)) q := by
  have hsub : ∀ k : Fin b, subf v (broadcastTo ⟨2, ![a, b]⟩ (shapeCast ⟨2, ![a, 1]⟩ (multiReduction .maximumf [1] ⟨1, ![a]⟩ v 0xFF800000#32 hr hφ hm) hc) hb) (ix2 p k)
      = v (ix2 p k) - rowMax (fun l : Fin b => v (ix2 p l)) := fun k => by
    rw [subf_apply, keepdimsCol_apply, laneMax_apply]
  unfold rowLogSoftmax
  rw [subf_apply, hsub q, Cert.ColRowBroadcast.colBroadcast_apply]
  show _ - Ideal.log (shapeCast ⟨2, ![a, 1]⟩ (multiReduction .add [1] ⟨1, ![a]⟩
      (exp (subf v (broadcastTo ⟨2, ![a, b]⟩ (shapeCast ⟨2, ![a, 1]⟩ (multiReduction .maximumf [1] ⟨1, ![a]⟩ v 0xFF800000#32 hr hφ hm) hc) hb)))
      0x00000000#32 hr hφ' hs) hc (ix2 p (0 : Fin 1))) = _
  rw [Cert.ColRowBroadcast.colCast_apply, laneSum_apply]
  refine congrArg (fun z => _ - Ideal.log z) (Finset.sum_congr rfl fun k _ => ?_)
  show Ideal.exp (subf v _ (ix2 p k)) = _
  rw [hsub k]

/-! ## The host's spelling -/

/-- A vector of `a` entries laid as a column [a, 1] by a `broadcast_in_dim` reads, at (p, 0), entry p. -/
theorem hostColCast_apply {α : Type} {a : ℕ} (u : (⟨1, ![a]⟩ : Shape).Idx → α)
    (b1 : (⟨1, ![a]⟩ : Shape).BroadcastsInDim ⟨2, ![a, 1]⟩ ![0]) (p : Fin a) (z : Fin 1) :
    broadcastInDim ⟨2, ![a, 1]⟩ ![0] b1 u (ix2 p z) = u (ix1 p) := by
  refine broadcastInDim_apply _ b1 u (ix2 p z) (ix1 p) fun c => ?_
  match c with
  | ⟨0, _⟩ =>
    show p.val = if a = 1 then 0 else p.val
    split
    · have := p.isLt; omega
    · rfl

/-- A column [a, 1] laid along the lanes to [a, b] by a `broadcast_in_dim` reads, at (p, q), the column at (p, 0). -/
theorem hostColBroadcast_apply {α : Type} {a b : ℕ} (w : (⟨2, ![a, 1]⟩ : Shape).Idx → α)
    (b2 : (⟨2, ![a, 1]⟩ : Shape).BroadcastsInDim ⟨2, ![a, b]⟩ ![0, 1]) (p : Fin a) (q : Fin b) :
    broadcastInDim ⟨2, ![a, b]⟩ ![0, 1] b2 w (ix2 p q) = w (ix2 p (0 : Fin 1)) := by
  refine broadcastInDim_apply _ b2 w (ix2 p q) (ix2 p (0 : Fin 1)) fun c => ?_
  match c with
  | ⟨0, _⟩ =>
    show p.val = if a = 1 then 0 else p.val
    split
    · have := p.isLt; omega
    · rfl
  | ⟨1, _⟩ => exact (if_pos rfl).symm

/-- The host's whole log-softmax expression at (p, q): the log-softmax of row p at q. -/
theorem host_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    subf
        (subf s (broadcastInDim ⟨2, ![a, b]⟩ ![0, 1] b2 (broadcastInDim ⟨2, ![a, 1]⟩ ![0] b1
          (maximumf (broadcastInDim ⟨1, ![a]⟩ ![] b0 (constant (F := Ideal) ⟨0, ![]⟩ .f32 0xFF800000#32))
            (Host.reduce FloatOps.maximumf s (constant (F := Ideal) ⟨0, ![]⟩ .f32 0xFF800000#32) h' hu)))))
        (broadcastInDim ⟨2, ![a, b]⟩ ![0, 1] b2 (Host.log (broadcastInDim ⟨2, ![a, 1]⟩ ![0] b1
          (Host.reduceAdd (Host.exp (subf s (broadcastInDim ⟨2, ![a, b]⟩ ![0, 1] b2 (broadcastInDim ⟨2, ![a, 1]⟩ ![0] b1
            (maximumf (broadcastInDim ⟨1, ![a]⟩ ![] b0 (constant (F := Ideal) ⟨0, ![]⟩ .f32 0xFF800000#32))
              (Host.reduce FloatOps.maximumf s (constant (F := Ideal) ⟨0, ![]⟩ .f32 0xFF800000#32) h' hu))))))
            (constant (F := Ideal) ⟨0, ![]⟩ .f32 0x00000000#32) h' hu)))) (ix2 p q)
      = rowLogSoftmax (fun k => s (ix2 p k)) q := by
  have hsub : ∀ k : Fin b, subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu)))) (ix2 p k)
      = s (ix2 p k) - rowMax (fun l : Fin b => s (ix2 p l)) := fun k => by
    rw [subf_apply, Cert.HostRowSoftmax.keepdimsCol_apply, Cert.HostRowSoftmax.hostRowMax_apply s h' h hu b0 p]
  unfold rowLogSoftmax
  rw [subf_apply, hsub q, hostColBroadcast_apply]
  show _ - Ideal.log (broadcastInDim ⟨2, ![a, 1]⟩ ![0] b1
      (Host.reduceAdd (Host.exp (subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu))))))
        (constant (F := Ideal) ⟨0, ![]⟩ .f32 0x00000000#32) h' hu) (ix2 p (0 : Fin 1))) = _
  rw [hostColCast_apply, Cert.HostRowSoftmax.hostRowSum_apply _ h' h hu p]
  refine congrArg (fun z => _ - Ideal.log z) (Finset.sum_congr rfl fun k _ => ?_)
  show Ideal.exp (subf s _ (ix2 p k)) = _
  rw [hsub k]

end Cert.RowLogSoftmax

end
-- ==== Proof.Spec.lean ====
/-
  The function both programs compute: a two-layer graph convolution with mean aggregation over 100000 nodes, followed
  by a log-softmax over each node's 40 scores.

  The graph enters through three sums over edges, which both programs compute with the same host operations and which
  are therefore carried here as parameters, never opened: `C`, the number of edges arriving at each node; `sum1 X`, for
  an array `X` of 128-feature rows the sum over a node's arriving edges of the source node's row; `sum2 H`, the same
  for 64-feature rows. With them

      H   = max (layer (sum1 X) C X W1l W1r b1, 0)            (the hidden layer, 64 features)
      out = logSoftmax (layer (sum2 H) C H W2l W2r b2)         (40 scores per node)

  where `layer S C X Wl Wr b` at node p, output q is Σ_k (S (p,k) / max (C p) 1) · Wl (k,q) + b q + Σ_k X (p,k) · Wr (k,q).
-/
import proofs.«162948_j45664092291593_1_alg».proof.Proof.LibSageLayer
import proofs.«162948_j45664092291593_1_alg».proof.Proof.LibRowLogSoftmax

noncomputable section

namespace Cert.Sage

open Idealize.ShloMosaic Idealize.ShloMosaic.ValueIdx

/-- The maximum with zero, entry by entry. -/
def relu {s : Shape} (f : s.Idx → EReal) : s.Idx → EReal := fun i => max (f i) (Ideal.ofBits .f32 0x00000000#32)

theorem relu_apply {s : Shape} (f : s.Idx → EReal) (i : s.Idx) : relu f i = max (f i) (Ideal.ofBits .f32 0x00000000#32) := rfl

/-- The hidden layer from the summed neighbour rows `S`, the counts `C` and the nodes' own rows `X`. -/
def hidden (S : (⟨2, ![100000, 128]⟩ : Shape).Idx → EReal) (C : (⟨1, ![100000]⟩ : Shape).Idx → EReal)
    (X : (⟨2, ![100000, 128]⟩ : Shape).Idx → EReal) (Wl Wr : (⟨2, ![128, 64]⟩ : Shape).Idx → EReal)
    (b : (⟨1, ![64]⟩ : Shape).Idx → EReal) : (⟨2, ![100000, 64]⟩ : Shape).Idx → EReal :=
  relu (Cert.SageLayer.layer S C X Wl Wr b)

/-- The scores from the summed hidden rows `S`, the counts `C` and the hidden rows `H`, log-softmaxed node by node. -/
def scores (S : (⟨2, ![100000, 64]⟩ : Shape).Idx → EReal) (C : (⟨1, ![100000]⟩ : Shape).Idx → EReal)
    (H : (⟨2, ![100000, 64]⟩ : Shape).Idx → EReal) (Wl Wr : (⟨2, ![64, 40]⟩ : Shape).Idx → EReal)
    (b : (⟨1, ![40]⟩ : Shape).Idx → EReal) : (⟨2, ![100000, 40]⟩ : Shape).Idx → EReal :=
  Cert.RowLogSoftmax.logSoftmax2 (Cert.SageLayer.layer S C H Wl Wr b)

/-- The whole network, the sums over edges as parameters. -/
def net (sum1 : ((⟨2, ![100000, 128]⟩ : Shape).Idx → EReal) → (⟨2, ![100000, 128]⟩ : Shape).Idx → EReal)
    (sum2 : ((⟨2, ![100000, 64]⟩ : Shape).Idx → EReal) → (⟨2, ![100000, 64]⟩ : Shape).Idx → EReal)
    (C : (⟨1, ![100000]⟩ : Shape).Idx → EReal) (X : (⟨2, ![100000, 128]⟩ : Shape).Idx → EReal)
    (W1l : (⟨2, ![128, 64]⟩ : Shape).Idx → EReal) (b1 : (⟨1, ![64]⟩ : Shape).Idx → EReal)
    (W1r : (⟨2, ![128, 64]⟩ : Shape).Idx → EReal) (W2l : (⟨2, ![64, 40]⟩ : Shape).Idx → EReal)
    (b2 : (⟨1, ![40]⟩ : Shape).Idx → EReal) (W2r : (⟨2, ![64, 40]⟩ : Shape).Idx → EReal) :
    (⟨2, ![100000, 40]⟩ : Shape).Idx → EReal :=
  scores (sum2 (hidden (sum1 X) C X W1l W1r b1)) C (hidden (sum1 X) C X W1l W1r b1) W2l W2r b2

end Cert.Sage

end
-- ==== Proof.HiddenBlocks.lean ====
/-
  The first kernel launch read as values, at the extended reals: the array it leaves is the hidden layer.

  The launch walks 25 blocks of 4000 nodes. At block t the body sees rows 4000·t … 4000·t + 3999 of the summed
  neighbour rows, of the counts' column and of the nodes' own rows, and the two tables and the bias row whole; what it
  writes back is the layer followed by the maximum with zero, on those rows. A layer only looks along a node's rows, so
  every block is the restriction of ONE function of the whole arrays (`hiddenOf`), and the 25 blocks cover all
  100000 rows: the array after the launch is that function.
-/
import proofs.«162948_j45664092291593_1_alg».proof.Proof.Gen.KernelIdeal.Frame
import proofs.«162948_j45664092291593_1_alg».proof.Proof.Spec
import Idealize.ShloMosaic.Lib.Pipeline.Value
import Idealize.ShloMosaic.Lib.ValueIdx

set_option maxRecDepth 16384

noncomputable section

namespace Cert.KernelIdeal.Hidden

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value is the layer's vector spelling on the block followed by the maximum with zero. -/
theorem pay_eq (v0 : Vec Ideal S4000x1 .f32) (v4 v9 : Vec Ideal S4000x128 .f32) (v11 v13 : Vec Ideal S128x64 .f32)
    (v17 : Vec Ideal S64 .f32) :
    k0_pay1 (F := Ideal) v0 v4 v9 v11 v13 v17
      = Cert.Sage.relu (Cert.SageLayer.body 4000 128 64 bitsLt_bf16_f32 shapeCasts_S4000x1_S4000x1
          shapeCasts_S4000x128_S4000x128 broadcasts_S4000x1_S4000x128 shapeCasts_S64_S1x64 broadcasts_S1x64_S4000x64
          v0 v4 (truncf .bf16 v9 bitsLt_bf16_f32) v11 v13 v17) := rfl

/-- One entry of a block against the whole arrays: when row p of the block's operands is row (i 0) of the whole
    arrays', the tables and the bias are the whole ones, and q is i's column, the body's value at (p, q) is the hidden
    layer at i. -/
theorem block_entry (S X : (⟨2, ![100000, 128]⟩ : Shape).Idx → EReal) (C8 : (⟨2, ![100000, 1]⟩ : Shape).Idx → EReal)
    (Wl Wr : (⟨2, ![128, 64]⟩ : Shape).Idx → EReal) (B : (⟨1, ![64]⟩ : Shape).Idx → EReal)
    (x0 : Vec Ideal S4000x128 .f32) (x1 : Vec Ideal S4000x1 .f32) (x2 : Vec Ideal S4000x128 .f32)
    (x3 : Vec Ideal S128x64 .f32) (x4 : Vec Ideal S64 .f32) (x5 : Vec Ideal S128x64 .f32)
    (p : Fin 4000) (q : Fin 64) (r : Fin 100000)
    (e0 : ∀ k : Fin 128, x0 (ix2 p k) = S (ix2 r k)) (e1 : x1 (ix2 p (0 : Fin 1)) = C8 (ix2 r (0 : Fin 1)))
    (e2 : ∀ k : Fin 128, x2 (ix2 p k) = X (ix2 r k)) (e3 : x3 = Wl) (e4 : x4 = B) (e5 : x5 = Wr) :
    k0_pay1 (F := Ideal) x1 x0 x2 x3 x5 x4 (ix2 p q)
      = Cert.Sage.hidden S (Cert.SageLayer.colOf C8) X Wl Wr B (ix2 r q) := by
  subst e3 e4 e5
  rw [pay_eq]
  unfold Cert.Sage.hidden
  rw [Cert.Sage.relu_apply, Cert.Sage.relu_apply]
  refine congrArg (fun z => max z _) ?_
  exact Cert.SageLayer.body_eq_layer 100000 4000 128 64 _ _ _ _ _ _ S C8 X x1 x0 _ x3 x5 x4 p r q e0 e2 e1

/-- The printed index maps, decided over the grid: windows 0, 1, 2 and 6 move one block of rows per point and stay in
    column block 0; windows 3, 4, 5 stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What the output array holds after the launch: the hidden layer of the arrays the launch finds. -/
abbrev hiddenOf (c : Dev nD) : (⟨2, ![100000, 64]⟩ : Shape).Idx → EReal :=
  Cert.Sage.hidden (V c main_v18) (Cert.SageLayer.colOf (V c main_v8)) (V c main_arg0) (V c main_arg2) (V c main_arg4)
    (V c main_arg3)

/-- WHAT POINT t WRITES BACK is block t of the hidden layer. -/
theorem flushed_eq (c : Dev nD) (t : Fin cfg0.N) :
    (dat0 V c).flushed 6 t = ((cfg0.win 6).blk t).view.read (Elt Ideal) (hiddenOf V c) := by
  show (cfg0.win 6).cut (grid0.coords t) ((dat0 V c).after 6 t) = _
  rw [after0_6]
  unfold out0_6
  rw [View.canon_unit_zero hz2]
  simp only [View.ld_unit_zero (S := S4000x1) hz2, View.ld_unit_zero (S := S4000x128) hz2,
    View.ld_unit_zero (S := S128x64) hz2, View.ld_unit_zero (S := S64) hz1]
  obtain ⟨a00, a01, a10, a11, a20, a21, a30, a31, a40, a50, a51, a60, a61⟩ := idx_facts t
  funext j
  obtain ⟨p, q, rfl⟩ : ∃ (p : Fin 4000) (q : Fin 64), j = ix2 p q := ⟨j 0, j 1, eq_ix2 j⟩
  have ht : t.val < 25 := lt_of_lt_of_eq t.isLt N_0
  have hp : p.val < 4000 := p.isLt
  have hq : q.val < 64 := q.isLt
  let r : Fin 100000 := ⟨t.val * 4000 + p.val, by omega⟩
  have hi : ((cfg0.win 6).blk t).view.emb (ix2 p q) = ix2 r q := by
    funext a; apply Fin.ext
    match a with
    | ⟨0, _⟩ => show win0_6.index t (0 : Fin 2) * 4000 + 1 * p.val = t.val * 4000 + p.val; rw [a60]; omega
    | ⟨1, _⟩ => show win0_6.index t (1 : Fin 2) * 64 + 1 * q.val = q.val; rw [a61]; omega
  show k0_pay1 (F := Ideal) (iblk0 V c 1 t) (iblk0 V c 0 t) (iblk0 V c 2 t) (iblk0 V c 3 t) (iblk0 V c 5 t) (iblk0 V c 4 t) (ix2 p q)
    = hiddenOf V c (((cfg0.win 6).blk t).view.emb (ix2 p q))
  rw [hi]
  refine block_entry (V c main_v18) (V c main_arg0) (V c main_v8) (V c main_arg2) (V c main_arg4) (V c main_arg3)
    (iblk0 V c 0 t) (iblk0 V c 1 t) (iblk0 V c 2 t) (iblk0 V c 3 t) (iblk0 V c 4 t) (iblk0 V c 5 t) p q r ?_ ?_ ?_ ?_ ?_ ?_
  · intro k
    show V c main_v18 (((cfg0.win 0).blk t).view.emb (ix2 p k)) = V c main_v18 (ix2 r k)
    refine congrArg (V c main_v18) (funext fun a => Fin.ext ?_)
    match a with
    | ⟨0, _⟩ => show win0_0.index t (0 : Fin 2) * 4000 + 1 * p.val = t.val * 4000 + p.val; rw [a00]; omega
    | ⟨1, _⟩ => show win0_0.index t (1 : Fin 2) * 128 + 1 * k.val = k.val; rw [a01]; omega
  · show V c main_v8 (((cfg0.win 1).blk t).view.emb (ix2 p (0 : Fin 1))) = V c main_v8 (ix2 r (0 : Fin 1))
    refine congrArg (V c main_v8) (funext fun a => Fin.ext ?_)
    match a with
    | ⟨0, _⟩ => show win0_1.index t (0 : Fin 2) * 4000 + 1 * p.val = t.val * 4000 + p.val; rw [a10]; omega
    | ⟨1, _⟩ => show win0_1.index t (1 : Fin 2) * 1 + 1 * 0 = 0; rw [a11]
  · intro k
    show V c main_arg0 (((cfg0.win 2).blk t).view.emb (ix2 p k)) = V c main_arg0 (ix2 r k)
    refine congrArg (V c main_arg0) (funext fun a => Fin.ext ?_)
    match a with
    | ⟨0, _⟩ => show win0_2.index t (0 : Fin 2) * 4000 + 1 * p.val = t.val * 4000 + p.val; rw [a20]; omega
    | ⟨1, _⟩ => show win0_2.index t (1 : Fin 2) * 128 + 1 * k.val = k.val; rw [a21]; omega
  · funext y
    show V c main_arg2 (((cfg0.win 3).blk t).view.emb y) = V c main_arg2 y
    refine congrArg (V c main_arg2) (funext fun a => Fin.ext ?_)
    match a with
    | ⟨0, _⟩ => show win0_3.index t (0 : Fin 2) * 128 + 1 * (y 0).val = (y 0).val; rw [a30]; omega
    | ⟨1, _⟩ => show win0_3.index t (1 : Fin 2) * 64 + 1 * (y 1).val = (y 1).val; rw [a31]; omega
  · funext y
    show V c main_arg3 (((cfg0.win 4).blk t).view.emb y) = V c main_arg3 y
    refine congrArg (V c main_arg3) (funext fun a => Fin.ext ?_)
    match a with
    | ⟨0, _⟩ => show win0_4.index t (0 : Fin 1) * 64 + 1 * (y 0).val = (y 0).val; rw [a40]; omega
  · funext y
    show V c main_arg4 (((cfg0.win 5).blk t).view.emb y) = V c main_arg4 y
    refine congrArg (V c main_arg4) (funext fun a => Fin.ext ?_)
    match a with
    | ⟨0, _⟩ => show win0_5.index t (0 : Fin 2) * 128 + 1 * (y 0).val = (y 0).val; rw [a50]; omega
    | ⟨1, _⟩ => show win0_5.index t (1 : Fin 2) * 64 + 1 * (y 1).val = (y 1).val; rw [a51]; omega

/-- An index of the output array is in point t's block iff each coordinate is in the block's range on its axis. -/
theorem mem_blk (t : Fin cfg0.N) (i : S100000x64.Idx) :
    i ∈ ((cfg0.win 6).blk t).view.set ↔ ∀ a : Fin 2, win0_6.index t a * S4000x64.size a ≤ (i a).val
      ∧ (i a).val < win0_6.index t a * S4000x64.size a + S4000x64.size a := by
  show i ∈ ((View.whole main_v19).slice (win0_6.rect t)).set ↔ _
  rw [View.set_slice_whole, Rect.mem_set_unit]
  exact Iff.rfl

/-- Every row is in the block of the point that is its number over 4000. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  obtain ⟨a00, a01, a10, a11, a20, a21, a30, a31, a40, a50, a51, a60, a61⟩ := idx_facts t
  have ht : t.val = (i 0).val / 4000 := rfl
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    rw [a60, ht]; omega
  | ⟨1, _⟩ =>
    show win0_6.index t (1 : Fin 2) * 64 ≤ (i 1).val ∧ (i 1).val < win0_6.index t (1 : Fin 2) * 64 + 64
    rw [a61]; omega

/-- THE ARRAY after the launch is the hidden layer of the arrays the launch finds. -/
theorem final (c : Dev nD) : (dat0 V c).arrAt 6 cfg0.N = hiddenOf V c :=
  (dat0 V c).arrAt_eq_of_cover 6 (hiddenOf V c) (fun t _ => flushed_eq V c t) cover

end Cert.KernelIdeal.Hidden

end
-- ==== Proof.ScoresBlocks.lean ====
/-
  The second kernel launch read as values, at the extended reals: the array it leaves is the log-softmaxed scores.

  The launch walks 25 blocks of 4000 nodes. At block t the body sees rows 4000·t … 4000·t + 3999 of the summed hidden
  rows, of the counts' column and of the hidden rows themselves, and the two tables and the bias row whole; it computes
  the layer's 40 scores of each of those nodes and subtracts, node by node, the scores' maximum and the logarithm of
  the sum of the shifted exponentials. Both the layer and the log-softmax only look along a node's rows, so every block
  is the restriction of ONE function of the whole arrays (`scoresOf`), and the 25 blocks cover all 100000 rows: the
  array after the launch is that function.
-/
import proofs.«162948_j45664092291593_1_alg».proof.Proof.Gen.KernelIdeal.Frame
import proofs.«162948_j45664092291593_1_alg».proof.Proof.Spec
import Idealize.ShloMosaic.Lib.Pipeline.Value
import Idealize.ShloMosaic.Lib.ValueIdx

set_option maxRecDepth 16384

noncomputable section

namespace Cert.KernelIdeal.Scores

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The log-softmax of a block of scores as the vector unit spells it. -/
def lsVec (L : FVec Ideal S4000x40 .f32) : FVec Ideal S4000x40 .f32 :=
  subf (subf L (broadcastTo S4000x40 (shapeCast S4000x1 (multiReduction .maximumf [1] S4000 L 0xFF800000#32
      reduces_S4000x40_S4000 (.inl rfl) rfl) shapeCasts_S4000_S4000x1) broadcasts_S4000x1_S4000x40))
    (broadcastTo S4000x40 (log (shapeCast S4000x1 (multiReduction .add [1] S4000
      (exp (subf L (broadcastTo S4000x40 (shapeCast S4000x1 (multiReduction .maximumf [1] S4000 L 0xFF800000#32
        reduces_S4000x40_S4000 (.inl rfl) rfl) shapeCasts_S4000_S4000x1) broadcasts_S4000x1_S4000x40)))
      0x00000000#32 reduces_S4000x40_S4000 (.inl rfl) rfl) shapeCasts_S4000_S4000x1)) broadcasts_S4000x1_S4000x40)

/-- At (p, q) it is the log-softmax of row p of the scores at q. -/
theorem lsVec_apply (L : FVec Ideal S4000x40 .f32) (p : Fin 4000) (q : Fin 40) :
    lsVec L (ix2 p q) = Cert.RowLogSoftmax.rowLogSoftmax (fun k => L (ix2 p k)) q :=
  Cert.RowLogSoftmax.vector_apply L reduces_S4000x40_S4000 (.inl rfl) (.inl rfl) rfl rfl shapeCasts_S4000_S4000x1
    broadcasts_S4000x1_S4000x40 p q

/-- The body's stored value is the log-softmax, in the vector unit's spelling, of the layer's vector spelling on the
    block. -/
theorem pay_eq (v0 : Vec Ideal S4000x1 .f32) (v4 v9 : Vec Ideal S4000x64 .f32) (v12 v14 : Vec Ideal S64x40 .f32)
    (v18 : Vec Ideal S40 .f32) :
    k1_pay1 (F := Ideal) v0 v4 v9 v12 v14 v18
      = lsVec (Cert.SageLayer.body 4000 64 40 bitsLt_bf16_f32 shapeCasts_S4000x1_S4000x1
          shapeCasts_S4000x64_S4000x64 broadcasts_S4000x1_S4000x64 shapeCasts_S40_S1x40 broadcasts_S1x40_S4000x40
          v0 v4 (truncf .bf16 (shapeCast S4000x64 v9 shapeCasts_S4000x64_S4000x64) bitsLt_bf16_f32) v12 v14 v18) := rfl

/-- One entry of a block against the whole arrays: when row p of the block's operands is row r of the whole arrays'
    and the tables and the bias are the whole ones, the body's value at (p, q) is the scores' log-softmax at (r, q). -/
theorem block_entry (S X : (⟨2, ![100000, 64]⟩ : Shape).Idx → EReal) (C8 : (⟨2, ![100000, 1]⟩ : Shape).Idx → EReal)
    (Wl Wr : (⟨2, ![64, 40]⟩ : Shape).Idx → EReal) (B : (⟨1, ![40]⟩ : Shape).Idx → EReal)
    (x0 : Vec Ideal S4000x64 .f32) (x1 : Vec Ideal S4000x1 .f32) (x2 : Vec Ideal S4000x64 .f32)
    (x3 : Vec Ideal S64x40 .f32) (x4 : Vec Ideal S40 .f32) (x5 : Vec Ideal S64x40 .f32)
    (p : Fin 4000) (q : Fin 40) (r : Fin 100000)
    (e0 : ∀ k : Fin 64, x0 (ix2 p k) = S (ix2 r k)) (e1 : x1 (ix2 p (0 : Fin 1)) = C8 (ix2 r (0 : Fin 1)))
    (e2 : ∀ k : Fin 64, x2 (ix2 p k) = X (ix2 r k)) (e3 : x3 = Wl) (e4 : x4 = B) (e5 : x5 = Wr) :
    k1_pay1 (F := Ideal) x1 x0 x2 x3 x5 x4 (ix2 p q)
      = Cert.Sage.scores S (Cert.SageLayer.colOf C8) X Wl Wr B (ix2 r q) := by
  subst e3 e4 e5
  rw [pay_eq, lsVec_apply]
  unfold Cert.Sage.scores
  rw [Cert.RowLogSoftmax.logSoftmax2_ix2]
  refine congrArg (fun f => Cert.RowLogSoftmax.rowLogSoftmax f q) (funext fun k => ?_)
  refine Cert.SageLayer.body_eq_layer 100000 4000 64 40 _ _ _ _ _ _ S C8 X x1 x0 _ x3 x5 x4 p r k e0 (fun j => ?_) e1
  rw [truncf_apply, shapeCast_self]
  exact e2 j

/-- The printed index maps, decided over the grid: windows 0, 1, 2 and 6 move one block of rows per point and stay in
    column block 0; windows 3, 4, 5 stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What the output array holds after the launch: the log-softmaxed scores of the arrays the launch finds. -/
abbrev scoresOf (c : Dev nD) : (⟨2, ![100000, 40]⟩ : Shape).Idx → EReal :=
  Cert.Sage.scores (V c main_v29) (Cert.SageLayer.colOf (V c main_v8)) (V c main_v19) (V c main_arg5) (V c main_arg7)
    (V c main_arg6)

/-- WHAT POINT t WRITES BACK is block t of the scores. -/
theorem flushed_eq (c : Dev nD) (t : Fin cfg1.N) :
    (dat1 V c).flushed 6 t = ((cfg1.win 6).blk t).view.read (Elt Ideal) (scoresOf V c) := by
  show (cfg1.win 6).cut (grid1.coords t) ((dat1 V c).after 6 t) = _
  rw [after1_6]
  unfold out1_6
  rw [View.canon_unit_zero hz2]
  simp only [View.ld_unit_zero (S := S4000x1) hz2, View.ld_unit_zero (S := S4000x64) hz2,
    View.ld_unit_zero (S := S64x40) hz2, View.ld_unit_zero (S := S40) hz1]
  obtain ⟨a00, a01, a10, a11, a20, a21, a30, a31, a40, a50, a51, a60, a61⟩ := idx_facts t
  funext j
  obtain ⟨p, q, rfl⟩ : ∃ (p : Fin 4000) (q : Fin 40), j = ix2 p q := ⟨j 0, j 1, eq_ix2 j⟩
  have ht : t.val < 25 := lt_of_lt_of_eq t.isLt N_1
  have hp : p.val < 4000 := p.isLt
  have hq : q.val < 40 := q.isLt
  let r : Fin 100000 := ⟨t.val * 4000 + p.val, by omega⟩
  have hi : ((cfg1.win 6).blk t).view.emb (ix2 p q) = ix2 r q := by
    funext a; apply Fin.ext
    match a with
    | ⟨0, _⟩ => show win1_6.index t (0 : Fin 2) * 4000 + 1 * p.val = t.val * 4000 + p.val; rw [a60]; omega
    | ⟨1, _⟩ => show win1_6.index t (1 : Fin 2) * 40 + 1 * q.val = q.val; rw [a61]; omega
  show k1_pay1 (F := Ideal) (iblk1 V c 1 t) (iblk1 V c 0 t) (iblk1 V c 2 t) (iblk1 V c 3 t) (iblk1 V c 5 t) (iblk1 V c 4 t) (ix2 p q)
    = scoresOf V c (((cfg1.win 6).blk t).view.emb (ix2 p q))
  rw [hi]
  refine block_entry (V c main_v29) (V c main_v19) (V c main_v8) (V c main_arg5) (V c main_arg7) (V c main_arg6)
    (iblk1 V c 0 t) (iblk1 V c 1 t) (iblk1 V c 2 t) (iblk1 V c 3 t) (iblk1 V c 4 t) (iblk1 V c 5 t) p q r ?_ ?_ ?_ ?_ ?_ ?_
  · intro k
    show V c main_v29 (((cfg1.win 0).blk t).view.emb (ix2 p k)) = V c main_v29 (ix2 r k)
    refine congrArg (V c main_v29) (funext fun a => Fin.ext ?_)
    match a with
    | ⟨0, _⟩ => show win1_0.index t (0 : Fin 2) * 4000 + 1 * p.val = t.val * 4000 + p.val; rw [a00]; omega
    | ⟨1, _⟩ => show win1_0.index t (1 : Fin 2) * 64 + 1 * k.val = k.val; rw [a01]; omega
  · show V c main_v8 (((cfg1.win 1).blk t).view.emb (ix2 p (0 : Fin 1))) = V c main_v8 (ix2 r (0 : Fin 1))
    refine congrArg (V c main_v8) (funext fun a => Fin.ext ?_)
    match a with
    | ⟨0, _⟩ => show win1_1.index t (0 : Fin 2) * 4000 + 1 * p.val = t.val * 4000 + p.val; rw [a10]; omega
    | ⟨1, _⟩ => show win1_1.index t (1 : Fin 2) * 1 + 1 * 0 = 0; rw [a11]
  · intro k
    show V c main_v19 (((cfg1.win 2).blk t).view.emb (ix2 p k)) = V c main_v19 (ix2 r k)
    refine congrArg (V c main_v19) (funext fun a => Fin.ext ?_)
    match a with
    | ⟨0, _⟩ => show win1_2.index t (0 : Fin 2) * 4000 + 1 * p.val = t.val * 4000 + p.val; rw [a20]; omega
    | ⟨1, _⟩ => show win1_2.index t (1 : Fin 2) * 64 + 1 * k.val = k.val; rw [a21]; omega
  · funext y
    show V c main_arg5 (((cfg1.win 3).blk t).view.emb y) = V c main_arg5 y
    refine congrArg (V c main_arg5) (funext fun a => Fin.ext ?_)
    match a with
    | ⟨0, _⟩ => show win1_3.index t (0 : Fin 2) * 64 + 1 * (y 0).val = (y 0).val; rw [a30]; omega
    | ⟨1, _⟩ => show win1_3.index t (1 : Fin 2) * 40 + 1 * (y 1).val = (y 1).val; rw [a31]; omega
  · funext y
    show V c main_arg6 (((cfg1.win 4).blk t).view.emb y) = V c main_arg6 y
    refine congrArg (V c main_arg6) (funext fun a => Fin.ext ?_)
    match a with
    | ⟨0, _⟩ => show win1_4.index t (0 : Fin 1) * 40 + 1 * (y 0).val = (y 0).val; rw [a40]; omega
  · funext y
    show V c main_arg7 (((cfg1.win 5).blk t).view.emb y) = V c main_arg7 y
    refine congrArg (V c main_arg7) (funext fun a => Fin.ext ?_)
    match a with
    | ⟨0, _⟩ => show win1_5.index t (0 : Fin 2) * 64 + 1 * (y 0).val = (y 0).val; rw [a50]; omega
    | ⟨1, _⟩ => show win1_5.index t (1 : Fin 2) * 40 + 1 * (y 1).val = (y 1).val; rw [a51]; omega

/-- An index of the output array is in point t's block iff each coordinate is in the block's range on its axis. -/
theorem mem_blk (t : Fin cfg1.N) (i : S100000x40.Idx) :
    i ∈ ((cfg1.win 6).blk t).view.set ↔ ∀ a : Fin 2, win1_6.index t a * S4000x40.size a ≤ (i a).val
      ∧ (i a).val < win1_6.index t a * S4000x40.size a + S4000x40.size a := by
  show i ∈ ((View.whole main_v30).slice (win1_6.rect t)).set ↔ _
  rw [View.set_slice_whole, Rect.mem_set_unit]
  exact Iff.rfl

/-- Every row is in the block of the point that is its number over 4000. -/
theorem cover (i : S100000x40.Idx) :
    ∃ t : Fin cfg1.N, (cfg1.win 6).flush t = true ∧ i ∈ ((cfg1.win 6).blk t).view.set := by
  have hi0 : (i 0).val < 100000 := (i 0).isLt
  have hi1 : (i 1).val < 40 := (i 1).isLt
  have hN : cfg1.N = 25 := N_1
  let t : Fin cfg1.N := ⟨(i 0).val / 4000, by rw [hN]; omega⟩
  obtain ⟨a00, a01, a10, a11, a20, a21, a30, a31, a40, a50, a51, a60, a61⟩ := idx_facts t
  have ht : t.val = (i 0).val / 4000 := rfl
  refine ⟨t, flush1_6 t, ?_⟩
  rw [mem_blk]
  intro a
  match a with
  | ⟨0, _⟩ =>
    show win1_6.index t (0 : Fin 2) * 4000 ≤ (i 0).val ∧ (i 0).val < win1_6.index t (0 : Fin 2) * 4000 + 4000
    rw [a60, ht]; omega
  | ⟨1, _⟩ =>
    show win1_6.index t (1 : Fin 2) * 40 ≤ (i 1).val ∧ (i 1).val < win1_6.index t (1 : Fin 2) * 40 + 40
    rw [a61]; omega

/-- THE ARRAY after the launch is the scores of the arrays the launch finds. -/
theorem final (c : Dev nD) : (dat1 V c).arrAt 6 cfg1.N = scoresOf V c :=
  (dat1 V c).arrAt_eq_of_cover 6 (scoresOf V c) (fun t _ => flushed_eq V c t) cover

end Cert.KernelIdeal.Scores

end
-- ==== Proof.KernelHost.lean ====
/-
  The host operations around the two kernel launches, read as values at the extended reals.

  Before the first launch @main cuts the edge table into its source and destination rows, counts the edges arriving at
  each node (ones scattered and added at the destinations) and lays the counts as a column, and sums, for each node, the
  feature rows of the sources of its arriving edges (a gather by source, negative indices counted from the end, then a
  scatter-add by destination). Between the launches it sums the hidden rows the same way. These sums are the same host
  operations in the reference, so they are named here (`srcOf`, `dstOf`, `cntOf`, `sum128`, `sum64`) and never opened:
  each lemma below says which named value a buffer holds after a stretch of host operations, from ANY contents before it.
-/
import proofs.«162948_j45664092291593_1_alg».proof.Proof.Gen.KernelIdeal.Launch
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo

/-- The edges' source nodes: row 0 of the edge table, flattened. -/
def srcOf (e : IVec S2x1600000 32) : IVec S1600000 32 :=
  shapeCast _ (extractStridedSlice S1x1600000 ![0, 0] e slices_S2x1600000_S1x1600000_0_0) shapeCasts_S1x1600000_S1600000

/-- The edges' destination nodes: row 1 of the edge table, flattened. -/
def dstOf (e : IVec S2x1600000 32) : IVec S1600000 32 :=
  shapeCast _ (extractStridedSlice S1x1600000 ![1, 0] e slices_S2x1600000_S1x1600000_1_0) shapeCasts_S1x1600000_S1600000

/-- A negative source index counted from the end (100000 added), laid as a column of start indices. -/
def wrapOf (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The number of edges arriving at each node: ones scattered and added at the destinations, from zeros. -/
def cntOf (d : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- For 128-feature rows: the source nodes' rows gathered edge by edge, scattered and added at the destinations. -/
def sum128 (s d : IVec S1600000 32) (x : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 x (wrapOf s))

/-- The same for 64-feature rows. -/
def sum64 (s d : IVec S1600000 32) (x : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 x (wrapOf s))

variable (W : Valuation τ sig (Elt Ideal))

/-! ## After the operations before the first launch -/

theorem host0_src : after (hostOps0 (F := Ideal)) W (Proc.devRef .tc main_v1) = srcOf (W (Proc.devRef .tc main_arg1)) := by
  after_results; rfl

theorem host0_dst : after (hostOps0 (F := Ideal)) W (Proc.devRef .tc main_v3) = dstOf (W (Proc.devRef .tc main_arg1)) := by
  after_results; rfl

theorem host0_cnt : after (hostOps0 (F := Ideal)) W (Proc.devRef .tc main_v8)
    = shapeCast S100000x1 (cntOf (dstOf (W (Proc.devRef .tc main_arg1)))) shapeCasts_S100000_S100000x1 := by
  after_results; rfl

set_option maxHeartbeats 4000000 in
theorem host0_sum : after (hostOps0 (F := Ideal)) W (Proc.devRef .tc main_v18)
    = sum128 (srcOf (W (Proc.devRef .tc main_arg1))) (dstOf (W (Proc.devRef .tc main_arg1))) (W (Proc.devRef .tc main_arg0)) := by
  after_results_simp; rfl

theorem host0_arg0 : after (hostOps0 (F := Ideal)) W (Proc.devRef .tc main_arg0) = W (Proc.devRef .tc main_arg0) := by after_results
theorem host0_arg2 : after (hostOps0 (F := Ideal)) W (Proc.devRef .tc main_arg2) = W (Proc.devRef .tc main_arg2) := by after_results
theorem host0_arg3 : after (hostOps0 (F := Ideal)) W (Proc.devRef .tc main_arg3) = W (Proc.devRef .tc main_arg3) := by after_results
theorem host0_arg4 : after (hostOps0 (F := Ideal)) W (Proc.devRef .tc main_arg4) = W (Proc.devRef .tc main_arg4) := by after_results
theorem host0_arg5 : after (hostOps0 (F := Ideal)) W (Proc.devRef .tc main_arg5) = W (Proc.devRef .tc main_arg5) := by after_results
theorem host0_arg6 : after (hostOps0 (F := Ideal)) W (Proc.devRef .tc main_arg6) = W (Proc.devRef .tc main_arg6) := by after_results
theorem host0_arg7 : after (hostOps0 (F := Ideal)) W (Proc.devRef .tc main_arg7) = W (Proc.devRef .tc main_arg7) := by after_results

/-! ## After the operations between the launches -/

set_option maxHeartbeats 4000000 in
theorem host1_sum : after (hostOps1 (F := Ideal)) W (Proc.devRef .tc main_v29)
    = sum64 (W (Proc.devRef .tc main_v1)) (W (Proc.devRef .tc main_v3)) (W (Proc.devRef .tc main_v19)) := by
  after_results_simp; rfl

theorem host1_cnt : after (hostOps1 (F := Ideal)) W (Proc.devRef .tc main_v8) = W (Proc.devRef .tc main_v8) := by after_results
theorem host1_hid : after (hostOps1 (F := Ideal)) W (Proc.devRef .tc main_v19) = W (Proc.devRef .tc main_v19) := by after_results
theorem host1_arg5 : after (hostOps1 (F := Ideal)) W (Proc.devRef .tc main_arg5) = W (Proc.devRef .tc main_arg5) := by after_results
theorem host1_arg6 : after (hostOps1 (F := Ideal)) W (Proc.devRef .tc main_arg6) = W (Proc.devRef .tc main_arg6) := by after_results
theorem host1_arg7 : after (hostOps1 (F := Ideal)) W (Proc.devRef .tc main_arg7) = W (Proc.devRef .tc main_arg7) := by after_results

end Cert.KernelIdeal.Hand

end
-- ==== Proof.KernelRun.lean ====
/-
  The idealized kernel program's run with its result named, and the result read as the network of the launch memory.

  `run_named` is the program's frame run over the same segments (host stretch, launch, host stretch, launch) with one
  more fact kept from the final state: the result buffer holds what the last segment boundary's contents hold there.
  Those contents are then walked back: the result array is what the second launch leaves (the log-softmaxed scores of
  the arrays that launch finds), its summed rows are the host's sum of the hidden rows, the hidden rows are what the
  first launch leaves (the hidden layer of the arrays that launch finds), and everything the first launch finds is a
  named host value of the launch memory. Put together, the result is `Cert.Sage.net` of the arguments.
-/
import proofs.«162948_j45664092291593_1_alg».proof.Proof.Gen.KernelIdeal.Frame
import proofs.«162948_j45664092291593_1_alg».proof.Proof.HiddenBlocks
import proofs.«162948_j45664092291593_1_alg».proof.Proof.ScoresBlocks
import proofs.«162948_j45664092291593_1_alg».proof.Proof.KernelHost

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

section Named

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run over its four segments, the result buffer read off the last boundary's contents beside the
    argument arrays. -/
theorem run_named : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Named

variable (m : (ℓ : Loc nD τ sig) → Buf (Elt Ideal) ℓ) (ρ : Dev nD → PrngReg)

/-- The edge table, the node features and the six parameter arrays as launched. -/
abbrev eOf (c : Dev nD) : IVec S2x1600000 32 := m ((c : Thread nD τ).loc main_arg1)
abbrev srcs (c : Dev nD) : IVec S1600000 32 := srcOf (eOf m c)
abbrev dsts (c : Dev nD) : IVec S1600000 32 := dstOf (eOf m c)

/-- The hidden layer of the launch memory. -/
abbrev hid (c : Dev nD) : (⟨2, ![100000, 64]⟩ : Shape).Idx → EReal :=
  Cert.Sage.hidden (sum128 (srcs m c) (dsts m c) (m ((c : Thread nD τ).loc main_arg0))) (cntOf (dsts m c))
    (m ((c : Thread nD τ).loc main_arg0)) (m ((c : Thread nD τ).loc main_arg2)) (m ((c : Thread nD τ).loc main_arg4))
    (m ((c : Thread nD τ).loc main_arg3))

/-! ## What the first launch finds -/

theorem V1_sum (c : Dev nD) : V1 m ρ c main_v18 = sum128 (srcs m c) (dsts m c) (m ((c : Thread nD τ).loc main_arg0)) :=
  host0_sum (W0 m ρ c)
theorem V1_cnt (c : Dev nD) : V1 m ρ c main_v8 = shapeCast S100000x1 (cntOf (dsts m c)) shapeCasts_S100000_S100000x1 :=
  host0_cnt (W0 m ρ c)
theorem V1_arg0 (c : Dev nD) : V1 m ρ c main_arg0 = m ((c : Thread nD τ).loc main_arg0) := host0_arg0 (W0 m ρ c)
theorem V1_arg2 (c : Dev nD) : V1 m ρ c main_arg2 = m ((c : Thread nD τ).loc main_arg2) := host0_arg2 (W0 m ρ c)
theorem V1_arg3 (c : Dev nD) : V1 m ρ c main_arg3 = m ((c : Thread nD τ).loc main_arg3) := host0_arg3 (W0 m ρ c)
theorem V1_arg4 (c : Dev nD) : V1 m ρ c main_arg4 = m ((c : Thread nD τ).loc main_arg4) := host0_arg4 (W0 m ρ c)

/-- The first launch leaves the hidden layer of the launch memory. -/
theorem hidden_final (c : Dev nD) : (dat0 (V1 m ρ) c).arrAt 6 cfg0.N = hid m c := by
  refine (Cert.KernelIdeal.Hidden.final (V1 m ρ) c).trans ?_
  show Cert.Sage.hidden (V1 m ρ c main_v18) (Cert.SageLayer.colOf (V1 m ρ c main_v8)) (V1 m ρ c main_arg0)
    (V1 m ρ c main_arg2) (V1 m ρ c main_arg4) (V1 m ρ c main_arg3) = _
  rw [V1_sum, V1_cnt, V1_arg0, V1_arg2, V1_arg3, V1_arg4, Cert.SageLayer.colOf_shapeCast]

/-! ## What the second launch finds -/

theorem W2_src (c : Dev nD) : W2 m ρ c (Proc.devRef .tc main_v1) = srcs m c :=
  (W2_of_ne m ρ c main_v1 (by decide)).trans (host0_src (W0 m ρ c))
theorem W2_dst (c : Dev nD) : W2 m ρ c (Proc.devRef .tc main_v3) = dsts m c :=
  (W2_of_ne m ρ c main_v3 (by decide)).trans (host0_dst (W0 m ρ c))
theorem W2_hid (c : Dev nD) : W2 m ρ c (Proc.devRef .tc main_v19) = hid m c :=
  (W2_arr m ρ c 6).trans (hidden_final m ρ c)
theorem W2_cnt (c : Dev nD) : W2 m ρ c (Proc.devRef .tc main_v8)
    = shapeCast S100000x1 (cntOf (dsts m c)) shapeCasts_S100000_S100000x1 :=
  (W2_arr m ρ c 1).trans ((((dat0 (V1 m ρ) c).arrAt_in 1 rfl _).trans (A_eq0 (V1 m ρ) c 1)).trans (V1_cnt m ρ c))
theorem W2_arg5 (c : Dev nD) : W2 m ρ c (Proc.devRef .tc main_arg5) = m ((c : Thread nD τ).loc main_arg5) :=
  (W2_of_ne m ρ c main_arg5 (by decide)).trans (host0_arg5 (W0 m ρ c))
theorem W2_arg6 (c : Dev nD) : W2 m ρ c (Proc.devRef .tc main_arg6) = m ((c : Thread nD τ).loc main_arg6) :=
  (W2_of_ne m ρ c main_arg6 (by decide)).trans (host0_arg6 (W0 m ρ c))
theorem W2_arg7 (c : Dev nD) : W2 m ρ c (Proc.devRef .tc main_arg7) = m ((c : Thread nD τ).loc main_arg7) :=
  (W2_of_ne m ρ c main_arg7 (by decide)).trans (host0_arg7 (W0 m ρ c))

theorem V3_sum (c : Dev nD) : V3 m ρ c main_v29 = sum64 (srcs m c) (dsts m c) (hid m c) :=
  (host1_sum (W2 m ρ c)).trans (by rw [W2_src, W2_dst, W2_hid])
theorem V3_cnt (c : Dev nD) : V3 m ρ c main_v8 = shapeCast S100000x1 (cntOf (dsts m c)) shapeCasts_S100000_S100000x1 :=
  (host1_cnt (W2 m ρ c)).trans (W2_cnt m ρ c)
theorem V3_hid (c : Dev nD) : V3 m ρ c main_v19 = hid m c := (host1_hid (W2 m ρ c)).trans (W2_hid m ρ c)
theorem V3_arg5 (c : Dev nD) : V3 m ρ c main_arg5 = m ((c : Thread nD τ).loc main_arg5) := (host1_arg5 (W2 m ρ c)).trans (W2_arg5 m ρ c)
theorem V3_arg6 (c : Dev nD) : V3 m ρ c main_arg6 = m ((c : Thread nD τ).loc main_arg6) := (host1_arg6 (W2 m ρ c)).trans (W2_arg6 m ρ c)
theorem V3_arg7 (c : Dev nD) : V3 m ρ c main_arg7 = m ((c : Thread nD τ).loc main_arg7) := (host1_arg7 (W2 m ρ c)).trans (W2_arg7 m ρ c)

/-! ## The result -/

/-- The network of the launch memory, its three sums over edges the host's. -/
abbrev netOf (c : Dev nD) : (⟨2, ![100000, 40]⟩ : Shape).Idx → EReal :=
  Cert.Sage.net (sum128 (srcs m c) (dsts m c)) (sum64 (srcs m c) (dsts m c)) (cntOf (dsts m c))
    (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- The last boundary's contents hold the network of the launch memory in the result buffer. -/
theorem result_eq (c : Dev nD) : W4 m ρ c (Proc.devRef .tc main_v30) = netOf m c := by
  refine (W4_arr m ρ c 6).trans ((Cert.KernelIdeal.Scores.final (V3 m ρ) c).trans ?_)
  show Cert.Sage.scores (V3 m ρ c main_v29) (Cert.SageLayer.colOf (V3 m ρ c main_v8)) (V3 m ρ c main_v19)
    (V3 m ρ c main_arg5) (V3 m ρ c main_arg7) (V3 m ρ c main_arg6) = _
  rw [V3_sum, V3_cnt, V3_hid, V3_arg5, V3_arg6, V3_arg7, Cert.SageLayer.colOf_shapeCast]
  rfl

/-- The idealized kernel program's run: the result is the network of the launch memory, the arguments unchanged. -/
theorem run : θ_run defs (onTc (τ := τ) (main (F := Ideal))) ⟨m, fun _ => 0, ρ⟩ (fun r => ∀ c : Dev nD,
      r.2.mem ((c.tc : Thread nD τ).loc main_v30) = netOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq m ρ c), (h c).2⟩) (run_named m ρ)

end Cert.KernelIdeal.Net

end
-- ==== Proof.RefStages.lean ====
/-
  The reference program's host operations read as values at the extended reals, five stretches at a time.

  The reference is one straight line of 84 host operations. Read in five stretches, each from ANY buffer contents
  before it, they give: (1) the edges' source and destination rows, the number of edges arriving at each node, and the
  sum over a node's arriving edges of the source's feature row; (2) the first layer — the summed rows over the counts'
  maximum with one, through the first table, plus the bias, plus the nodes' own rows through the second table — and
  its maximum with zero; (3) the same sum over edges of the hidden rows, and the counts once more; (4) the second
  layer's scores; (5) the log-softmax of the scores along each node's row. The sums over edges are named
  (`srcOf`, `dstOf`, `cntOf`, `sum128`, `sum64`) and never opened; the layers and the log-softmax are named in the
  host's own spelling (`layer128`, `relu64`, `layer64`, `lsHost`).
-/
import proofs.«162948_j45664092291593_1_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

/-- The edges' source nodes: row 0 of the edge table, flattened. -/
def srcOf (e : IVec S2x1600000 32) : IVec S1600000 32 :=
  shapeCast _ (extractStridedSlice S1x1600000 ![0, 0] e slices_S2x1600000_S1x1600000_0_0) shapeCasts_S1x1600000_S1600000

/-- The edges' destination nodes: row 1 of the edge table, flattened. -/
def dstOf (e : IVec S2x1600000 32) : IVec S1600000 32 :=
  shapeCast _ (extractStridedSlice S1x1600000 ![1, 0] e slices_S2x1600000_S1x1600000_1_0) shapeCasts_S1x1600000_S1600000

/-- A negative source index counted from the end (100000 added), laid as a column of start indices. -/
def wrapOf (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The number of edges arriving at each node: ones scattered and added at the destinations, from zeros. -/
def cntOf (d : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- For 128-feature rows: the source nodes' rows gathered edge by edge, scattered and added at the destinations. -/
def sum128 (s d : IVec S1600000 32) (x : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 x (wrapOf s))

/-- The same for 64-feature rows. -/
def sum64 (s d : IVec S1600000 32) (x : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 x (wrapOf s))

/-- A layer on 128-feature rows in the host's spelling: summed rows `S`, counts `C`, own rows `X`. -/
def layer128 (S : FVec Ideal S100000x128 .f32) (C : FVec Ideal S100000 .f32) (X : FVec Ideal S100000x128 .f32)
    (Wl Wr : FVec Ideal S128x64 .f32) (Bv : FVec Ideal S64 .f32) : FVec Ideal S100000x64 .f32 :=
  addf (addf
      (Host.dotGeneral dot_S100000x128_S128x64_S100000x64_1_0_0_1_n_n none
        (Host.divf S (broadcastInDim S100000x128 ![0, 1] bcast_S100000x1_S100000x128_0_1
          (broadcastInDim S100000x1 ![0] bcast_S100000_S100000x1_0
            (maximumf C (broadcastInDim S100000 ![] bcast_S_S100000 (constant S_ .f32 0x3F800000#32)))))) Wl)
      (broadcastInDim S100000x64 ![0, 1] bcast_S1x64_S100000x64_0_1 (broadcastInDim S1x64 ![1] bcast_S64_S1x64_1 Bv)))
    (Host.dotGeneral dot_S100000x128_S128x64_S100000x64_1_0_0_1_n_n none X Wr)

/-- The maximum with zero of a 64-feature array, the zero a constant broadcast from rank zero. -/
def relu64 (Y : FVec Ideal S100000x64 .f32) : FVec Ideal S100000x64 .f32 :=
  maximumf Y (broadcastInDim S100000x64 ![] bcast_S_S100000x64 (constant S_ .f32 0x00000000#32))

/-- A layer on 64-feature rows in the host's spelling. -/
def layer64 (S : FVec Ideal S100000x64 .f32) (C : FVec Ideal S100000 .f32) (X : FVec Ideal S100000x64 .f32)
    (Wl Wr : FVec Ideal S64x40 .f32) (Bv : FVec Ideal S40 .f32) : FVec Ideal S100000x40 .f32 :=
  addf (addf
      (Host.dotGeneral dot_S100000x64_S64x40_S100000x40_1_0_0_1_n_n none
        (Host.divf S (broadcastInDim S100000x64 ![0, 1] bcast_S100000x1_S100000x64_0_1
          (broadcastInDim S100000x1 ![0] bcast_S100000_S100000x1_0
            (maximumf C (broadcastInDim S100000 ![] bcast_S_S100000 (constant S_ .f32 0x3F800000#32)))))) Wl)
      (broadcastInDim S100000x40 ![0, 1] bcast_S1x40_S100000x40_0_1 (broadcastInDim S1x40 ![1] bcast_S40_S1x40_1 Bv)))
    (Host.dotGeneral dot_S100000x64_S64x40_S100000x40_1_0_0_1_n_n none X Wr)

/-- Each row's maximum of the scores as the host takes it: a max-reduction from −∞ and one more maximum with −∞. -/
def rowMaxV (L : FVec Ideal S100000x40 .f32) : FVec Ideal S100000 .f32 :=
  maximumf (broadcastInDim S100000 ![] bcast_S_S100000 (constant S_ .f32 0xFF800000#32))
    (Host.reduce FloatOps.maximumf L (constant S_ .f32 0xFF800000#32) reducesTo_S100000x40_S100000_d1 h_S_)

/-- The scores less a per-row value `M` laid back over the rows. -/
def shiftV (L : FVec Ideal S100000x40 .f32) (M : FVec Ideal S100000 .f32) : FVec Ideal S100000x40 .f32 :=
  subf L (broadcastInDim S100000x40 ![0, 1] bcast_S100000x1_S100000x40_0_1
    (broadcastInDim S100000x1 ![0] bcast_S100000_S100000x1_0 M))

/-- Each row's sum of exponentials, from zero. -/
def expSumV (Sh : FVec Ideal S100000x40 .f32) : FVec Ideal S100000 .f32 :=
  Host.reduceAdd (Host.exp Sh) (constant S_ .f32 0x00000000#32) reducesTo_S100000x40_S100000_d1 h_S_

/-- The shifted scores less the logarithm of a per-row value `Z`, the logarithm taken on the column [N, 1]. -/
def lsOutV (Sh : FVec Ideal S100000x40 .f32) (Z : FVec Ideal S100000 .f32) : FVec Ideal S100000x40 .f32 :=
  subf Sh (broadcastInDim S100000x40 ![0, 1] bcast_S100000x1_S100000x40_0_1
    (Host.log (broadcastInDim S100000x1 ![0] bcast_S100000_S100000x1_0 Z)))

/-- The log-softmax of the scores along each row in the host's spelling. -/
def lsHost (L : FVec Ideal S100000x40 .f32) : FVec Ideal S100000x40 .f32 :=
  lsOutV (shiftV L (rowMaxV L)) (expSumV (shiftV L (rowMaxV L)))

/-- The hidden layer in the host's spelling, of the node features `x`, the edge table `e` and the first layer's arrays. -/
def hidR (x : FVec Ideal S100000x128 .f32) (e : IVec S2x1600000 32) (w1l : FVec Ideal S128x64 .f32) (b1 : FVec Ideal S64 .f32)
    (w1r : FVec Ideal S128x64 .f32) : FVec Ideal S100000x64 .f32 :=
  relu64 (layer128 (sum128 (srcOf e) (dstOf e) x) (cntOf (dstOf e)) x w1l w1r b1)

/-- The network in the host's spelling. -/
def refNet (x : FVec Ideal S100000x128 .f32) (e : IVec S2x1600000 32) (w1l : FVec Ideal S128x64 .f32) (b1 : FVec Ideal S64 .f32)
    (w1r : FVec Ideal S128x64 .f32) (w2l : FVec Ideal S64x40 .f32) (b2 : FVec Ideal S40 .f32) (w2r : FVec Ideal S64x40 .f32) :
    FVec Ideal S100000x40 .f32 :=
  lsHost (layer64 (sum64 (srcOf e) (dstOf e) (hidR x e w1l b1 w1r)) (cntOf (dstOf e)) (hidR x e w1l b1 w1r) w2l w2r b2)

/-! ## The five stretches -/

abbrev ops1 {F : FTy → Type} [FloatOps F] : List (HloOp τ sig (Elt F)) :=
  [
    unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ]

abbrev ops2 {F : FTy → Type} [FloatOps F] : List (HloOp τ sig (Elt F)) :=
  [
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    binary main_v22 main_arg2 main_v23 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)),
    binary main_arg0 main_arg4 main_v27 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v26 main_v27 main_v28 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v28) (TRef.of (T := ⟨S100000x64, .f32⟩) main_call0_v0) (TRef.of (T := ⟨S100000x64, .f32⟩) main_v29) maximumf ]

abbrev ops3 {F : FTy → Type} [FloatOps F] : List (HloOp τ sig (Elt F)) :=
  [
    nullary main_c_4 (constantI S_ 32 0#32),
    unary main_c_4 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_6 (constant S_ .f32 0x00000000#32),
    unary main_cst_6 main_v37 (broadcastInDim S100000x64 ![] bcast_S_S100000x64 : (⟨S_, .f32⟩ : BufTy).Contents (Elt F) → (⟨S100000x64, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_7 (constant S_ .f32 0x3F800000#32),
    unary main_cst_7 main_v40 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v41 (broadcastInDim S100000 ![] bcast_S_S100000 : (⟨S_, .f32⟩ : BufTy).Contents (Elt F) → (⟨S100000, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ]

abbrev ops4 {F : FTy → Type} [FloatOps F] : List (HloOp τ sig (Elt F)) :=
  [
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v43 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x64 ![0, 1] bcast_S100000x1_S100000x64_0_1 : (⟨S100000x1, .f32⟩ : BufTy).Contents (Elt F) → (⟨S100000x64, .f32⟩ : BufTy).Contents (Elt F)),
    binary main_v39 main_v47 main_v48 (Host.divf : (⟨S100000x64, .f32⟩ : BufTy).Contents (Elt F) → (⟨S100000x64, .f32⟩ : BufTy).Contents (Elt F) → (⟨S100000x64, .f32⟩ : BufTy).Contents (Elt F)),
    binary main_v48 main_arg5 main_v49 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg6 main_v50 (broadcastInDim S1x40 ![1] bcast_S40_S1x40_1 : (⟨S40, .f32⟩ : BufTy).Contents (Elt F) → (⟨S1x40, .f32⟩ : BufTy).Contents (Elt F)),
    unary main_v50 main_v51 (broadcastInDim S100000x40 ![0, 1] bcast_S1x40_S100000x40_0_1 : (⟨S1x40, .f32⟩ : BufTy).Contents (Elt F) → (⟨S100000x40, .f32⟩ : BufTy).Contents (Elt F)),
    binary main_v49 main_v51 main_v52 (addf : (⟨S100000x40, .f32⟩ : BufTy).Contents (Elt F) → (⟨S100000x40, .f32⟩ : BufTy).Contents (Elt F) → (⟨S100000x40, .f32⟩ : BufTy).Contents (Elt F)),
    binary main_v29 main_arg7 main_v53 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    binary main_v52 main_v53 main_v54 (addf : (⟨S100000x40, .f32⟩ : BufTy).Contents (Elt F) → (⟨S100000x40, .f32⟩ : BufTy).Contents (Elt F) → (⟨S100000x40, .f32⟩ : BufTy).Contents (Elt F)) ]

abbrev ops5a {F : FTy → Type} [FloatOps F] : List (HloOp τ sig (Elt F)) :=
  [
    TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf ]

abbrev ops5b {F : FTy → Type} [FloatOps F] : List (HloOp τ sig (Elt F)) :=
  [
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf ]

abbrev ops5c {F : FTy → Type} [FloatOps F] : List (HloOp τ sig (Elt F)) :=
  [
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_) ]

abbrev ops5d {F : FTy → Type} [FloatOps F] : List (HloOp τ sig (Elt F)) :=
  [
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v55) subf ]

variable (V : Valuation τ sig (Elt Ideal))

/-! ### Stretch 1: the edges' rows, the counts, the summed feature rows -/

theorem s1_src : after (ops1 (F := Ideal)) V (Proc.devRef .tc main_v1) = srcOf (V (Proc.devRef .tc main_arg1)) := by after_results_simp; rfl
theorem s1_dst : after (ops1 (F := Ideal)) V (Proc.devRef .tc main_v3) = dstOf (V (Proc.devRef .tc main_arg1)) := by after_results_simp; rfl
set_option maxHeartbeats 4000000 in
theorem s1_sum : after (ops1 (F := Ideal)) V (Proc.devRef .tc main_v13)
    = sum128 (srcOf (V (Proc.devRef .tc main_arg1))) (dstOf (V (Proc.devRef .tc main_arg1))) (V (Proc.devRef .tc main_arg0)) := by after_results_simp; rfl
set_option maxHeartbeats 4000000 in
theorem s1_cnt : after (ops1 (F := Ideal)) V (Proc.devRef .tc main_v17) = cntOf (dstOf (V (Proc.devRef .tc main_arg1))) := by after_results_simp; rfl
theorem s1_arg0 : after (ops1 (F := Ideal)) V (Proc.devRef .tc main_arg0) = V (Proc.devRef .tc main_arg0) := by after_results_simp
theorem s1_arg2 : after (ops1 (F := Ideal)) V (Proc.devRef .tc main_arg2) = V (Proc.devRef .tc main_arg2) := by after_results_simp
theorem s1_arg3 : after (ops1 (F := Ideal)) V (Proc.devRef .tc main_arg3) = V (Proc.devRef .tc main_arg3) := by after_results_simp
theorem s1_arg4 : after (ops1 (F := Ideal)) V (Proc.devRef .tc main_arg4) = V (Proc.devRef .tc main_arg4) := by after_results_simp
theorem s1_arg5 : after (ops1 (F := Ideal)) V (Proc.devRef .tc main_arg5) = V (Proc.devRef .tc main_arg5) := by after_results_simp
theorem s1_arg6 : after (ops1 (F := Ideal)) V (Proc.devRef .tc main_arg6) = V (Proc.devRef .tc main_arg6) := by after_results_simp
theorem s1_arg7 : after (ops1 (F := Ideal)) V (Proc.devRef .tc main_arg7) = V (Proc.devRef .tc main_arg7) := by after_results_simp

/-! ### Stretch 2: the first layer and its maximum with zero -/

set_option maxHeartbeats 4000000 in
theorem s2_hid : after (ops2 (F := Ideal)) V (Proc.devRef .tc main_v29)
    = relu64 (layer128 (V (Proc.devRef .tc main_v13)) (V (Proc.devRef .tc main_v17)) (V (Proc.devRef .tc main_arg0)) (V (Proc.devRef .tc main_arg2)) (V (Proc.devRef .tc main_arg4)) (V (Proc.devRef .tc main_arg3))) := by
  after_results_simp; rfl
theorem s2_v1 : after (ops2 (F := Ideal)) V (Proc.devRef .tc main_v1) = V (Proc.devRef .tc main_v1) := by after_results_simp
theorem s2_v3 : after (ops2 (F := Ideal)) V (Proc.devRef .tc main_v3) = V (Proc.devRef .tc main_v3) := by after_results_simp
theorem s2_arg5 : after (ops2 (F := Ideal)) V (Proc.devRef .tc main_arg5) = V (Proc.devRef .tc main_arg5) := by after_results_simp
theorem s2_arg6 : after (ops2 (F := Ideal)) V (Proc.devRef .tc main_arg6) = V (Proc.devRef .tc main_arg6) := by after_results_simp
theorem s2_arg7 : after (ops2 (F := Ideal)) V (Proc.devRef .tc main_arg7) = V (Proc.devRef .tc main_arg7) := by after_results_simp

/-! ### Stretch 3: the summed hidden rows, the counts again -/

set_option maxHeartbeats 4000000 in
theorem s3_sum : after (ops3 (F := Ideal)) V (Proc.devRef .tc main_v39)
    = sum64 (V (Proc.devRef .tc main_v1)) (V (Proc.devRef .tc main_v3)) (V (Proc.devRef .tc main_v29)) := by after_results_simp; rfl
set_option maxHeartbeats 4000000 in
theorem s3_cnt : after (ops3 (F := Ideal)) V (Proc.devRef .tc main_v43) = cntOf (V (Proc.devRef .tc main_v3)) := by after_results_simp; rfl
theorem s3_v29 : after (ops3 (F := Ideal)) V (Proc.devRef .tc main_v29) = V (Proc.devRef .tc main_v29) := by after_results_simp
theorem s3_arg5 : after (ops3 (F := Ideal)) V (Proc.devRef .tc main_arg5) = V (Proc.devRef .tc main_arg5) := by after_results_simp
theorem s3_arg6 : after (ops3 (F := Ideal)) V (Proc.devRef .tc main_arg6) = V (Proc.devRef .tc main_arg6) := by after_results_simp
theorem s3_arg7 : after (ops3 (F := Ideal)) V (Proc.devRef .tc main_arg7) = V (Proc.devRef .tc main_arg7) := by after_results_simp

/-! ### Stretch 4: the second layer's scores -/

set_option maxHeartbeats 4000000 in
theorem s4_scores : after (ops4 (F := Ideal)) V (Proc.devRef .tc main_v54)
    = layer64 (V (Proc.devRef .tc main_v39)) (V (Proc.devRef .tc main_v43)) (V (Proc.devRef .tc main_v29)) (V (Proc.devRef .tc main_arg5)) (V (Proc.devRef .tc main_arg7)) (V (Proc.devRef .tc main_arg6)) := by
  after_results_simp; rfl

/-! ### Stretch 5: the log-softmax, in four short pieces (the row maximum; the shifted scores; the sum of their
    exponentials; the logarithm laid back and subtracted) -/

/-- A value carried to a buffer's own type and back is the value. -/
theorem ofBuf_toBuf {T : BufTy} {Val : EltTy → Type} (x : TRef sig T) (v : T.Contents Val) : x.ofBuf (x.toBuf v) = v := by
  obtain ⟨r, h, h2, h3⟩ := x
  cases h
  rfl

/-- The scores' buffer read at the scores' type is its contents. -/
theorem scores_read : (TRef.of (T := ⟨S100000x40, .f32⟩) main_v54).ofBuf (Val := Elt Ideal) (V (Proc.devRef .tc main_v54))
    = V (Proc.devRef .tc main_v54) := rfl

/-- A vector of 100000 numbers carried to the row maxima's buffer type is itself. -/
theorem rowMax_write (Y : (⟨S100000, .f32⟩ : BufTy).Contents (Elt Ideal)) :
    (TRef.of (T := ⟨S100000, .f32⟩) main_call1_v2).toBuf (Val := Elt Ideal) Y = Y := rfl

theorem s5a_max : after (ops5a (F := Ideal)) V (Proc.devRef .tc main_call1_v2) = rowMaxV (V (Proc.devRef .tc main_v54)) := by
  after_results_simp
  simp only [ofBuf_toBuf]
  rw [scores_read V]
  refine (rowMax_write _).trans ?_
  rfl
theorem s5a_v54 : after (ops5a (F := Ideal)) V (Proc.devRef .tc main_v54) = V (Proc.devRef .tc main_v54) := by after_results_simp

theorem s5b_shift : after (ops5b (F := Ideal)) V (Proc.devRef .tc main_call1_v5)
    = shiftV (V (Proc.devRef .tc main_v54)) (V (Proc.devRef .tc main_call1_v2)) := by
  after_results_simp; rfl

theorem s5c_sum : after (ops5c (F := Ideal)) V (Proc.devRef .tc main_call1_v7) = expSumV (V (Proc.devRef .tc main_call1_v5)) := by
  after_results_simp; rfl
theorem s5c_v5 : after (ops5c (F := Ideal)) V (Proc.devRef .tc main_call1_v5) = V (Proc.devRef .tc main_call1_v5) := by after_results_simp

theorem s5d_out : after (ops5d (F := Ideal)) V (Proc.devRef .tc main_v55)
    = lsOutV (V (Proc.devRef .tc main_call1_v5)) (V (Proc.devRef .tc main_call1_v7)) := by
  after_results_simp; rfl

end Cert.ReferenceIdeal.Hand

end
-- ==== Proof.RefRun.lean ====
/-
  The reference program's run: every weakly fair execution of its 84 host operations terminates, the result buffer
  holding the network's value in the host's spelling (`refNet`) of the launch memory, the arguments unchanged.

  The operations are listed once (`ops`), @main is their sequence, and the list is the five stretches of the
  stretch-by-stretch reading one after the other; the fold of the whole list over the launch memory is then the folds of
  the stretches composed, each read by its own lemma, every buffer a later stretch reads carried through the stretches
  that do not write it.
-/
import proofs.«162948_j45664092291593_1_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

section List

variable {F : FTy → Type} [FloatOps F]

/-- @main's 84 operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    binary main_v22 main_arg2 main_v23 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)),
    binary main_arg0 main_arg4 main_v27 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v26 main_v27 main_v28 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v28) (TRef.of (T := ⟨S100000x64, .f32⟩) main_call0_v0) (TRef.of (T := ⟨S100000x64, .f32⟩) main_v29) maximumf,
    nullary main_c_4 (constantI S_ 32 0#32),
    unary main_c_4 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_6 (constant S_ .f32 0x00000000#32),
    unary main_cst_6 main_v37 (broadcastInDim S100000x64 ![] bcast_S_S100000x64 : (⟨S_, .f32⟩ : BufTy).Contents (Elt F) → (⟨S100000x64, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_7 (constant S_ .f32 0x3F800000#32),
    unary main_cst_7 main_v40 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v41 (broadcastInDim S100000 ![] bcast_S_S100000 : (⟨S_, .f32⟩ : BufTy).Contents (Elt F) → (⟨S100000, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v43 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x64 ![0, 1] bcast_S100000x1_S100000x64_0_1 : (⟨S100000x1, .f32⟩ : BufTy).Contents (Elt F) → (⟨S100000x64, .f32⟩ : BufTy).Contents (Elt F)),
    binary main_v39 main_v47 main_v48 (Host.divf : (⟨S100000x64, .f32⟩ : BufTy).Contents (Elt F) → (⟨S100000x64, .f32⟩ : BufTy).Contents (Elt F) → (⟨S100000x64, .f32⟩ : BufTy).Contents (Elt F)),
    binary main_v48 main_arg5 main_v49 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg6 main_v50 (broadcastInDim S1x40 ![1] bcast_S40_S1x40_1 : (⟨S40, .f32⟩ : BufTy).Contents (Elt F) → (⟨S1x40, .f32⟩ : BufTy).Contents (Elt F)),
    unary main_v50 main_v51 (broadcastInDim S100000x40 ![0, 1] bcast_S1x40_S100000x40_0_1 : (⟨S1x40, .f32⟩ : BufTy).Contents (Elt F) → (⟨S100000x40, .f32⟩ : BufTy).Contents (Elt F)),
    binary main_v49 main_v51 main_v52 (addf : (⟨S100000x40, .f32⟩ : BufTy).Contents (Elt F) → (⟨S100000x40, .f32⟩ : BufTy).Contents (Elt F) → (⟨S100000x40, .f32⟩ : BufTy).Contents (Elt F)),
    binary main_v29 main_arg7 main_v53 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    binary main_v52 main_v53 main_v54 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v55) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The fold of two stretches one after the other is the second's fold over the first's. -/
theorem after_append {Val : EltTy → Type} : ∀ (l₁ l₂ : List (HloOp τ sig Val)) (V : Valuation τ sig Val),
    after (l₁ ++ l₂) V = after l₂ (after l₁ V)
  | [], _, _ => rfl
  | op :: l₁, l₂, V => after_append l₁ l₂ (op.result V)

end List

set_option maxRecDepth 8192 in
/-- The list is the stretches in order. -/
theorem ops_split : (ops (F := Ideal)) = ops1 ++ (ops2 ++ (ops3 ++ (ops4 ++ (ops5a ++ (ops5b ++ (ops5c ++ ops5d)))))) := rfl

variable (W : Valuation τ sig (Elt Ideal))

-- the stretches' values are matched by name; no host operation is opened
attribute [local irreducible] Host.reduce Host.reduceAdd in
/-- The fold of all 84 operations at the result buffer: the network of the contents the fold starts from. -/
theorem out_eq : after (ops (F := Ideal)) W (Proc.devRef .tc main_v55)
    = refNet (W (Proc.devRef .tc main_arg0)) (W (Proc.devRef .tc main_arg1)) (W (Proc.devRef .tc main_arg2)) (W (Proc.devRef .tc main_arg3)) (W (Proc.devRef .tc main_arg4))
        (W (Proc.devRef .tc main_arg5)) (W (Proc.devRef .tc main_arg6)) (W (Proc.devRef .tc main_arg7)) := by
  rw [ops_split, after_append, after_append, after_append, after_append, after_append, after_append, after_append]
  rw [s5d_out, s5c_sum, s5c_v5, s5b_shift, s5a_max, s5a_v54, s4_scores, s3_sum, s3_cnt, s3_v29, s3_arg5, s3_arg6, s3_arg7, s2_hid, s2_v1, s2_v3, s2_arg5, s2_arg6, s2_arg7,
    s1_sum, s1_cnt, s1_src, s1_dst, s1_arg0, s1_arg2, s1_arg3, s1_arg4, s1_arg5, s1_arg6, s1_arg7]
  rfl

set_option maxHeartbeats 4000000 in
theorem kept_arg0 : after (ops (F := Ideal)) W (Proc.devRef .tc main_arg0) = W (Proc.devRef .tc main_arg0) := by after_results_simp
set_option maxHeartbeats 4000000 in
theorem kept_arg1 : after (ops (F := Ideal)) W (Proc.devRef .tc main_arg1) = W (Proc.devRef .tc main_arg1) := by after_results_simp
set_option maxHeartbeats 4000000 in
theorem kept_arg2 : after (ops (F := Ideal)) W (Proc.devRef .tc main_arg2) = W (Proc.devRef .tc main_arg2) := by after_results_simp
set_option maxHeartbeats 4000000 in
theorem kept_arg3 : after (ops (F := Ideal)) W (Proc.devRef .tc main_arg3) = W (Proc.devRef .tc main_arg3) := by after_results_simp
set_option maxHeartbeats 4000000 in
theorem kept_arg4 : after (ops (F := Ideal)) W (Proc.devRef .tc main_arg4) = W (Proc.devRef .tc main_arg4) := by after_results_simp
set_option maxHeartbeats 4000000 in
theorem kept_arg5 : after (ops (F := Ideal)) W (Proc.devRef .tc main_arg5) = W (Proc.devRef .tc main_arg5) := by after_results_simp
set_option maxHeartbeats 4000000 in
theorem kept_arg6 : after (ops (F := Ideal)) W (Proc.devRef .tc main_arg6) = W (Proc.devRef .tc main_arg6) := by after_results_simp
set_option maxHeartbeats 4000000 in
theorem kept_arg7 : after (ops (F := Ideal)) W (Proc.devRef .tc main_arg7) = W (Proc.devRef .tc main_arg7) := by after_results_simp

/-- On every device, from any memory with zero counters: every weakly fair execution of @main terminates with the
    result at the network of the launch memory and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v55).trans (out_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c))⟩)
    (run_seq scopedRefs_eq scopedSems_eq defs main (fun _ => ops) main_eq (fun _ => ops_sub) m ρ)

end Cert.ReferenceIdeal.Hand

end
-- ==== Proof.RefValue.lean ====
/-
  The reference's network in the host's spelling IS the network of the specification.

  Piece by piece: the host's maximum with a zero broadcast from rank zero is the maximum with zero; the host's layer
  (plain products, the counts' maximum with one and the bias laid out by `broadcast_in_dim`s) is the layer read node by
  node; the host's log-softmax (row maximum from −∞ and once more against −∞, row sum from zero, the logarithm on the
  reduced column) is the log-softmax of each row.
-/
import proofs.«162948_j45664092291593_1_alg».proof.Proof.RefStages
import proofs.«162948_j45664092291593_1_alg».proof.Proof.Spec

noncomputable section

namespace Cert.ReferenceIdeal.Hand

open Cert.ReferenceIdeal Cert.ReferenceIdeal.Gen Idealize.ShloMosaic Idealize.ShloMosaic.TcCoe Idealize.SL.Sem
open Idealize.ShloMosaic.ValueIdx

theorem relu64_eq (Y : FVec Ideal S100000x64 .f32) : relu64 Y = Cert.Sage.relu Y := by
  funext i
  unfold relu64
  rw [Cert.Sage.relu_apply, maximumf_apply,
    broadcastInDim_apply ![] bcast_S_S100000x64 (constant (F := Ideal) S_ .f32 0x00000000#32) i (fun a => a.elim0) (fun a => a.elim0)]
  rfl

theorem layer128_eq (S : FVec Ideal S100000x128 .f32) (C : FVec Ideal S100000 .f32) (X : FVec Ideal S100000x128 .f32)
    (Wl Wr : FVec Ideal S128x64 .f32) (Bv : FVec Ideal S64 .f32) :
    layer128 S C X Wl Wr Bv = Cert.SageLayer.layer S C X Wl Wr Bv :=
  (show layer128 S C X Wl Wr Bv = Cert.SageLayer.host 100000 128 64 bcast_S_S100000 bcast_S100000_S100000x1_0
    bcast_S100000x1_S100000x128_0_1 bcast_S64_S1x64_1 bcast_S1x64_S100000x64_0_1 S C X Wl Wr Bv from rfl).trans
    (Cert.SageLayer.host_eq_layer 100000 128 64 _ _ _ _ _ S C X Wl Wr Bv)

theorem layer64_eq (S : FVec Ideal S100000x64 .f32) (C : FVec Ideal S100000 .f32) (X : FVec Ideal S100000x64 .f32)
    (Wl Wr : FVec Ideal S64x40 .f32) (Bv : FVec Ideal S40 .f32) :
    layer64 S C X Wl Wr Bv = Cert.SageLayer.layer S C X Wl Wr Bv :=
  (show layer64 S C X Wl Wr Bv = Cert.SageLayer.host 100000 64 40 bcast_S_S100000 bcast_S100000_S100000x1_0
    bcast_S100000x1_S100000x64_0_1 bcast_S40_S1x40_1 bcast_S1x40_S100000x40_0_1 S C X Wl Wr Bv from rfl).trans
    (Cert.SageLayer.host_eq_layer 100000 64 40 _ _ _ _ _ S C X Wl Wr Bv)

-- the two spellings are matched operand by operand; a reduction over an axis is never run
attribute [local irreducible] Host.reduce Host.reduceAdd in
theorem lsHost_eq (L : FVec Ideal S100000x40 .f32) : lsHost L = Cert.RowLogSoftmax.logSoftmax2 L := by
  funext i
  obtain ⟨p, q, rfl⟩ : ∃ (p : Fin 100000) (q : Fin 40), i = ix2 p q := ⟨i 0, i 1, eq_ix2 i⟩
  rw [Cert.RowLogSoftmax.logSoftmax2_ix2]
  unfold lsHost lsOutV shiftV expSumV rowMaxV
  exact Cert.RowLogSoftmax.host_apply L reducesTo_S100000x40_S100000_d1 (by decide) h_S_ bcast_S_S100000
    bcast_S100000_S100000x1_0 bcast_S100000x1_S100000x40_0_1 p q

/-- The network in the host's spelling is the specification's, the sums over edges the host's. -/
theorem refNet_eq (x : FVec Ideal S100000x128 .f32) (e : IVec S2x1600000 32) (w1l : FVec Ideal S128x64 .f32)
    (b1 : FVec Ideal S64 .f32) (w1r : FVec Ideal S128x64 .f32) (w2l : FVec Ideal S64x40 .f32) (b2 : FVec Ideal S40 .f32)
    (w2r : FVec Ideal S64x40 .f32) :
    refNet x e w1l b1 w1r w2l b2 w2r
      = Cert.Sage.net (sum128 (srcOf e) (dstOf e)) (sum64 (srcOf e) (dstOf e)) (cntOf (dstOf e)) x w1l b1 w1r w2l b2 w2r := by
  unfold refNet hidR Cert.Sage.net Cert.Sage.scores Cert.Sage.hidden
  rw [lsHost_eq, layer64_eq, relu64_eq, layer128_eq]

end Cert.ReferenceIdeal.Hand

end
-- ==== Proof.lean ====
/-
  A two-layer graph convolution with mean aggregation and a log-softmax head, as two fused vector kernels over blocks
  of 4000 nodes with the sums over edges left to the host, against the same network written in plain array operations:
  the two idealized programs compute the same extended reals, entry by entry.

  Both programs take, from the edge table, the count of edges arriving at each node and, for a feature array, the sum
  over a node's arriving edges of the source node's row — with the SAME host operations, so these sums are carried as
  named functions and never opened. What remains is dense: layer(S, C, X) at node p, output q is
      Σ_k (S (p,k) / max (C p) 1) · Wl (k,q) + b q + Σ_k X (p,k) · Wr (k,q),
  the hidden layer is its maximum with zero, and the result is the log-softmax of the second layer along each node's
  scores. The kernels compute the layer on a block of rows with matrix-unit products into zero accumulators (a sum of
  products over k, as the host's product is), lay the counts' column and the bias row out by casts and broadcasts
  where the host uses `broadcast_in_dim`, and take the row maximum and the row sum by lane reductions where the host
  reduces; none of this changes a value on the extended reals, no law of arithmetic is used beyond reading both sides
  at an index, and the inputs' finiteness is never needed.

  The kernel program's run is its frame run with the result buffer named; its value is read launch by launch (each
  block of a launch's output is the restriction of one function of whole arrays, and the blocks cover the array). The
  reference's run is read stretch by stretch of its host operations. Both results are `Cert.Sage.net` of the arguments.
-/
import proofs.«162948_j45664092291593_1_alg».proof.Defs
import proofs.«162948_j45664092291593_1_alg».proof.Proof.Gen.Kernel
import proofs.«162948_j45664092291593_1_alg».proof.Proof.Gen.Kernel.Frame
import proofs.«162948_j45664092291593_1_alg».proof.Proof.Gen.KernelIdeal
import proofs.«162948_j45664092291593_1_alg».proof.Proof.Gen.KernelIdeal.Frame
import proofs.«162948_j45664092291593_1_alg».proof.Proof.Gen.ReferenceIdeal
import proofs.«162948_j45664092291593_1_alg».proof.Proof.Gen.Pre_finite_inputs
import proofs.«162948_j45664092291593_1_alg».proof.Proof.KernelRun
import proofs.«162948_j45664092291593_1_alg».proof.Proof.RefRun
import proofs.«162948_j45664092291593_1_alg».proof.Proof.RefValue
import Idealize.ShloMosaic.Adequacy
import Idealize.ShloMosaic.Init

noncomputable section

namespace Cert.Proof

open Idealize.ShloMosaic Idealize.SL.Sem

/-! ## The sums over edges are the same host terms in both programs -/

theorem srcOf_eq (e : IVec Cert.KernelIdeal.S2x1600000 32) :
    Cert.ReferenceIdeal.Hand.srcOf e = Cert.KernelIdeal.Hand.srcOf e := rfl
theorem dstOf_eq (e : IVec Cert.KernelIdeal.S2x1600000 32) :
    Cert.ReferenceIdeal.Hand.dstOf e = Cert.KernelIdeal.Hand.dstOf e := rfl
theorem cntOf_eq (d : IVec Cert.KernelIdeal.S1600000 32) :
    Cert.ReferenceIdeal.Hand.cntOf d = Cert.KernelIdeal.Hand.cntOf d := rfl
theorem sum128_eq (s d : IVec Cert.KernelIdeal.S1600000 32) :
    Cert.ReferenceIdeal.Hand.sum128 s d = Cert.KernelIdeal.Hand.sum128 s d := rfl
theorem sum64_eq (s d : IVec Cert.KernelIdeal.S1600000 32) :
    Cert.ReferenceIdeal.Hand.sum64 s d = Cert.KernelIdeal.Hand.sum64 s d := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- The ideal pass rewrote nothing: the idealization is the program's own text read on the extended reals. -/
theorem preserves : Cert.preserves_Kernel_KernelIdeal := trivial

/-- From memories agreeing on the arguments both runs end at the network of the kernel's launch memory. -/
theorem algebraic : Cert.algebraic_KernelIdeal_ReferenceIdeal := by
  intro m ρ m' ρ' _ hagree
  refine ⟨fun c => Cert.KernelIdeal.Net.netOf m c, Cert.KernelIdeal.Net.run m ρ, ?_⟩
  refine (θ_run Cert.ReferenceIdeal.defs _ _).mono (fun _ h c => ⟨(h c).1.trans ?_, (h c).2⟩)
    (Cert.ReferenceIdeal.Hand.run m' ρ')
  obtain ⟨a0, a1, a2, a3, a4, a5, a6, a7⟩ := hagree c
  rw [Cert.ReferenceIdeal.Hand.refNet_eq, a0, a1, a2, a3, a4, a5, a6, a7, srcOf_eq, dstOf_eq, cntOf_eq, sum128_eq, sum64_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
